-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x131072 : Shape := ⟨3, ![32, 4, 131072]⟩
abbrev S_ : Shape := ⟨0, ![]⟩

class Facts : Prop where
  bcast_S_S32x4x131072 : S_.BroadcastsInDim S32x4x131072 (![] : Fin 0 → Fin S32x4x131072.rank)
  reducesTo_S32x4x131072_S_d0_1_2 : S32x4x131072.ReducesTo [0, 1, 2] S_
  h_S_ : 0 < S_.numel

variable [Facts]

def fn {F : FTy → Type} [FloatOps F] (main_arg0 : FVec F S32x4x131072 .f32) (main_arg1 : FVec F S32x4x131072 .f32) : IVec S_ 1 :=
  let main_v0 : FVec F S32x4x131072 .f32 := Host.absf main_arg0
  let main_cst : FVec F S_ .f32 := constant S_ .f32 0x7F800000#32
  let main_v1 : FVec F S32x4x131072 .f32 := broadcastInDim S32x4x131072 ![] bcast_S_S32x4x131072 main_cst
  let main_v2 : IVec S32x4x131072 1 := cmpf .olt main_v0 main_v1
  let main_c : IVec S_ 1 := constantI S_ 1 1#1
  let main_v3 : IVec S_ 1 := (fun x v => Host.reduce IntOp.andi x v reducesTo_S32x4x131072_S_d0_1_2 h_S_) main_v2 main_c
  let main_v4 : FVec F S32x4x131072 .f32 := Host.absf main_arg1
  let main_cst_0 : FVec F S_ .f32 := constant S_ .f32 0x7F800000#32
  let main_v5 : FVec F S32x4x131072 .f32 := broadcastInDim S32x4x131072 ![] bcast_S_S32x4x131072 main_cst_0
  let main_v6 : IVec S32x4x131072 1 := cmpf .olt main_v4 main_v5
  let main_c_1 : IVec S_ 1 := constantI S_ 1 1#1
  let main_v7 : IVec S_ 1 := (fun x v => Host.reduce IntOp.andi x v reducesTo_S32x4x131072_S_d0_1_2 h_S_) main_v6 main_c_1
  let main_v8 : IVec S_ 1 := andi main_v3 main_v7
  main_v8
-- ==== Kernel.lean ====
abbrev S32x4x131072 : Shape := ⟨3, ![32, 4, 131072]⟩
abbrev S24x4 : Shape := ⟨2, ![24, 4]⟩
abbrev S32x1x4 : Shape := ⟨3, ![32, 1, 4]⟩
abbrev S32x4x4 : Shape := ⟨3, ![32, 4, 4]⟩
abbrev S1x4x131072 : Shape := ⟨3, ![1, 4, 131072]⟩
abbrev S1x1x4 : Shape := ⟨3, ![1, 1, 4]⟩
abbrev S1x4x4 : Shape := ⟨3, ![1, 4, 4]⟩
abbrev S4x131072 : Shape := ⟨2, ![4, 131072]⟩
abbrev S4 : Shape := ⟨1, ![4]⟩
abbrev S1x4 : Shape := ⟨2, ![1, 4]⟩
abbrev S1x131072 : Shape := ⟨2, ![1, 131072]⟩
abbrev S131072 : Shape := ⟨1, ![131072]⟩
abbrev S32x4 : Shape := ⟨2, ![32, 4]⟩
abbrev S_ : Shape := ⟨0, ![]⟩
abbrev S24x4x1 : Shape := ⟨3, ![24, 4, 1]⟩
abbrev S32x24x4 : Shape := ⟨3, ![32, 24, 4]⟩
abbrev S24x4x2 : Shape := ⟨3, ![24, 4, 2]⟩
abbrev S32x24 : Shape := ⟨2, ![32, 24]⟩
abbrev S32 : Shape := ⟨1, ![32]⟩

abbrev nBuf : Space → Nat
  | .hbm => 72
  | .vmem => 10
  | .smem => 0
  | _ => 0

abbrev bufTy : (tb : Table) → Fin (tcTables nBuf tb) → BufTy
  | .hbm, ⟨0, _⟩ => ⟨S32x4x131072, .f32⟩
  | .hbm, ⟨1, _⟩ => ⟨S32x4x131072, .f32⟩
  | .hbm, ⟨2, _⟩ => ⟨S24x4, .i32⟩
  | .hbm, ⟨3, _⟩ => ⟨S32x1x4, .f32⟩
  | .hbm, ⟨4, _⟩ => ⟨S32x1x4, .f32⟩
  | .hbm, ⟨5, _⟩ => ⟨S32x4x4, .f32⟩
  | .hbm, ⟨6, _⟩ => ⟨S32x4, .f32⟩
  | .hbm, ⟨7, _⟩ => ⟨S32x4, .f32⟩
  | .hbm, ⟨8, _⟩ => ⟨S4, .i32⟩
  | .hbm, ⟨9, _⟩ => ⟨S_, .i32⟩
  | .hbm, ⟨10, _⟩ => ⟨S24x4, .i32⟩
  | .hbm, ⟨11, _⟩ => ⟨S24x4, .i1⟩
  | .hbm, ⟨12, _⟩ => ⟨S_, .i32⟩
  | .hbm, ⟨13, _⟩ => ⟨S24x4, .i32⟩
  | .hbm, ⟨14, _⟩ => ⟨S24x4, .i32⟩
  | .hbm, ⟨15, _⟩ => ⟨S24x4, .i32⟩
  | .hbm, ⟨16, _⟩ => ⟨S24x4x1, .i32⟩
  | .hbm, ⟨17, _⟩ => ⟨S32x24x4, .f32⟩
  | .hbm, ⟨18, _⟩ => ⟨S_, .i32⟩
  | .hbm, ⟨19, _⟩ => ⟨S24x4, .i32⟩
  | .hbm, ⟨20, _⟩ => ⟨S24x4, .i1⟩
  | .hbm, ⟨21, _⟩ => ⟨S_, .i32⟩
  | .hbm, ⟨22, _⟩ => ⟨S24x4, .i32⟩
  | .hbm, ⟨23, _⟩ => ⟨S24x4, .i32⟩
  | .hbm, ⟨24, _⟩ => ⟨S24x4, .i32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S4, .i32⟩
  | .hbm, ⟨32, _⟩ => ⟨S24x4, .i32⟩
  | .hbm, ⟨33, _⟩ => ⟨S24x4x1, .i32⟩
  | .hbm, ⟨34, _⟩ => ⟨S24x4x1, .i32⟩
  | .hbm, ⟨35, _⟩ => ⟨S24x4x2, .i32⟩
  | .hbm, ⟨36, _⟩ => ⟨S32x24x4, .f32⟩
  | .hbm, ⟨37, _⟩ => ⟨S_, .f32⟩
  | .hbm, ⟨38, _⟩ => ⟨S32x24x4, .f32⟩
  | .hbm, ⟨39, _⟩ => ⟨S32x24x4, .f32⟩
  | .hbm, ⟨40, _⟩ => ⟨S32x24x4, .f32⟩
  | .hbm, ⟨41, _⟩ => ⟨S32x1x4, .f32⟩
  | .hbm, ⟨42, _⟩ => ⟨S32x24x4, .f32⟩
  | .hbm, ⟨43, _⟩ => ⟨S32x24x4, .f32⟩
  | .hbm, ⟨44, _⟩ => ⟨S32x1x4, .f32⟩
  | .hbm, ⟨45, _⟩ => ⟨S_, .f32⟩
  | .hbm, ⟨46, _⟩ => ⟨S32x1x4, .f32⟩
  | .hbm, ⟨47, _⟩ => ⟨S32x1x4, .f32⟩
  | .hbm, ⟨48, _⟩ => ⟨S_, .f32⟩
  | .hbm, ⟨49, _⟩ => ⟨S32x24x4, .f32⟩
  | .hbm, ⟨50, _⟩ => ⟨S32x24x4, .f32⟩
  | .hbm, ⟨51, _⟩ => ⟨S32x24x4, .f32⟩
  | .hbm, ⟨52, _⟩ => ⟨S32x24x4, .f32⟩
  | .hbm, ⟨53, _⟩ => ⟨S32x24x4, .f32⟩
  | .hbm, ⟨54, _⟩ => ⟨S_, .f32⟩
  | .hbm, ⟨55, _⟩ => ⟨S32x24x4, .f32⟩
  | .hbm, ⟨56, _⟩ => ⟨S32x24x4, .f32⟩
  | .hbm, ⟨57, _⟩ => ⟨S_, .f32⟩
  | .hbm, ⟨58, _⟩ => ⟨S32x24x4, .f32⟩
  | .hbm, ⟨59, _⟩ => ⟨S32x24x4, .f32⟩
  | .hbm, ⟨60, _⟩ => ⟨S_, .f32⟩
  | .hbm, ⟨61, _⟩ => ⟨S32x24, .f32⟩
  | .hbm, ⟨62, _⟩ => ⟨S_, .f32⟩
  | .hbm, ⟨63, _⟩ => ⟨S32x24, .f32⟩
  | .hbm, ⟨64, _⟩ => ⟨S32x24, .f32⟩
  | .hbm, ⟨65, _⟩ => ⟨S_, .f32⟩
  | .hbm, ⟨66, _⟩ => ⟨S32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1x4x131072, .f32⟩
  | .local _ .vmem, ⟨1, _⟩ => ⟨S1x4x131072, .f32⟩
  | .local _ .vmem, ⟨2, _⟩ => ⟨S1x4x131072, .f32⟩
  | .local _ .vmem, ⟨3, _⟩ => ⟨S1x4x131072, .f32⟩
  | .local _ .vmem, ⟨4, _⟩ => ⟨S1x1x4, .f32⟩
  | .local _ .vmem, ⟨5, _⟩ => ⟨S1x1x4, .f32⟩
  | .local _ .vmem, ⟨6, _⟩ => ⟨S1x1x4, .f32⟩
  | .local _ .vmem, ⟨7, _⟩ => ⟨S1x1x4, .f32⟩
  | .local _ .vmem, ⟨8, _⟩ => ⟨S1x4x4, .f32⟩
  | .local _ .vmem, ⟨9, _⟩ => ⟨S1x4x4, .f32⟩
  | _, _ => ⟨S32x4x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x4x131072_S1x4x131072_0_0_0 : ∀ a, (![0, 0, 0] : Fin 3 → Nat) a + S1x4x131072.size a ≤ S1x4x131072.size a
  h_S1x4x131072 : 0 < S1x4x131072.numel
  shapeCasts_S1x4x131072_S4x131072 : S1x4x131072.ShapeCasts S4x131072
  reduces_S4x131072_S4 : S4x131072.Reduces [1] S4
  shapeCasts_S4_S1x4 : S4.ShapeCasts S1x4
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  slices_S4x131072_o0_0_S1x131072 : S4x131072.Slices ![0, 0] S1x131072
  shapeCasts_S1x131072_S131072 : S1x131072.ShapeCasts S131072
  shapeCasts_S131072_S1x131072 : S131072.ShapeCasts S1x131072
  broadcasts_S1x131072_S4x131072 : S1x131072.Broadcasts S4x131072
  inb_S1x4x4_S1x1x4_0_0_0 : ∀ a, (![0, 0, 0] : Fin 3 → Nat) a + S1x1x4.size a ≤ S1x4x4.size a
  shapeCasts_S1x1x4_S4 : S1x1x4.ShapeCasts S4
  shapeCasts_S4_S1x1x4 : S4.ShapeCasts S1x1x4
  slices_S4x131072_o1_0_S1x131072 : S4x131072.Slices ![1, 0] S1x131072
  inb_S1x4x4_S1x1x4_0_1_0 : ∀ a, (![0, 1, 0] : Fin 3 → Nat) a + S1x1x4.size a ≤ S1x4x4.size a
  slices_S4x131072_o2_0_S1x131072 : S4x131072.Slices ![2, 0] S1x131072
  inb_S1x4x4_S1x1x4_0_2_0 : ∀ a, (![0, 2, 0] : Fin 3 → Nat) a + S1x1x4.size a ≤ S1x4x4.size a
  slices_S4x131072_o3_0_S1x131072 : S4x131072.Slices ![3, 0] S1x131072
  inb_S1x4x4_S1x1x4_0_3_0 : ∀ a, (![0, 3, 0] : Fin 3 → Nat) a + S1x1x4.size a ≤ S1x4x4.size a
  shapeCasts_S32x1x4_S32x4 : S32x1x4.ShapeCasts S32x4
  bcast_S_S24x4 : S_.BroadcastsInDim S24x4 (![] : Fin 0 → Fin S24x4.rank)
  bcast_S24x4_S24x4x1_0_1 : S24x4.BroadcastsInDim S24x4x1 (![0, 1] : Fin 2 → Fin S24x4x1.rank)
  bcast_S_S4 : S_.BroadcastsInDim S4 (![] : Fin 0 → Fin S4.rank)
  bcast_S4_S24x4_1 : S4.BroadcastsInDim S24x4 (![1] : Fin 1 → Fin S24x4.rank)
  concatenates_S24x4x1_S24x4x1_S24x4x2_d2 : Shape.Concatenates [S24x4x1, S24x4x1] S24x4x2 2
  bcast_S_S32x24x4 : S_.BroadcastsInDim S32x24x4 (![] : Fin 0 → Fin S32x24x4.rank)
  bcast_S32x4_S32x1x4_0_2 : S32x4.BroadcastsInDim S32x1x4 (![0, 2] : Fin 2 → Fin S32x1x4.rank)
  bcast_S32x1x4_S32x24x4_0_1_2 : S32x1x4.BroadcastsInDim S32x24x4 (![0, 1, 2] : Fin 3 → Fin S32x24x4.rank)
  bcast_S_S32x1x4 : S_.BroadcastsInDim S32x1x4 (![] : Fin 0 → Fin S32x1x4.rank)
  reducesTo_S32x24x4_S32x24_d2 : S32x24x4.ReducesTo [2] S32x24
  h_S_ : 0 < S_.numel
  bcast_S_S32x24 : S_.BroadcastsInDim S32x24 (![] : Fin 0 → Fin S32x24.rank)
  reducesTo_S32x24_S32_d1 : S32x24.ReducesTo [1] S32
  reducesTo_S32_S_d0 : S32.ReducesTo [0] S_
  gather_S32x4_S24x4x1_S32x24x4_0_1_n_n_1_2_321_wf : GatherDims.WF S32x4 S24x4x1 S32x24x4 [0] [1] [] [1] [] 2 ![32, 1]
  gather_S32x4x4_S24x4x2_S32x24x4_0_12_n_n_12_2_3211_wf : GatherDims.WF S32x4x4 S24x4x2 S32x24x4 [0] [1, 2] [] [1, 2] [] 2 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x131072.size a ≤ S32x4x131072.size a
  hwx0_0 : ∀ i : grid0.Coords, EltTy.bits .f32 = 32 ∨ (Rect.block (s := S32x4x131072) S1x4x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x131072.size a ≤ S32x4x131072.size a
  hwx0_1 : ∀ i : grid0.Coords, EltTy.bits .f32 = 32 ∨ (Rect.block (s := S32x4x131072) S1x4x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S32x1x4.size a
  hwx0_2 : ∀ i : grid0.Coords, EltTy.bits .f32 = 32 ∨ (Rect.block (s := S32x1x4) S1x1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4.size a ≤ S32x1x4.size a
  hwx0_3 : ∀ i : grid0.Coords, EltTy.bits .f32 = 32 ∨ (Rect.block (s := S32x1x4) S1x1x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x4.size a ≤ S32x4x4.size a
  hwx0_4 : ∀ i : grid0.Coords, EltTy.bits .f32 = 32 ∨ (Rect.block (s := S32x4x4) S1x4x4.size (cc0_transform_4 i) (hinb0_4 i)).WholeWords (EltTy.packing .f32)

variable [Facts₀]

def gather_S32x4_S24x4x1_S32x24x4_0_1_n_n_1_2_321 : GatherDims S32x4 S24x4x1 S32x24x4 where
  offsetDims := [0]
  collapsedSliceDims := [1]
  operandBatchingDims := []
  startIndicesBatchingDims := []
  startIndexMap := [1]
  indexVectorDim := 2
  sliceSizes := ![32, 1]
  wf := gather_S32x4_S24x4x1_S32x24x4_0_1_n_n_1_2_321_wf
def gather_S32x4x4_S24x4x2_S32x24x4_0_12_n_n_12_2_3211 : GatherDims S32x4x4 S24x4x2 S32x24x4 where
  offsetDims := [0]
  collapsedSliceDims := [1, 2]
  operandBatchingDims := []
  startIndicesBatchingDims := []
  startIndexMap := [1, 2]
  indexVectorDim := 2
  sliceSizes := ![32, 1, 1]
  wf := gather_S32x4x4_S24x4x2_S32x24x4_0_12_n_n_12_2_3211_wf

abbrev win0_0 : Pipeline.Window sig grid0 :=
  Pipeline.Window.ofSpec (Memref.whole main_arg0) S1x4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x4x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4x131072 : Shape := ⟨3, ![32, 4, 131072]⟩
abbrev S24x4 : Shape := ⟨2, ![24, 4]⟩
abbrev S_ : Shape := ⟨0, ![]⟩
abbrev S32x4 : Shape := ⟨2, ![32, 4]⟩
abbrev S32x4x4 : Shape := ⟨3, ![32, 4, 4]⟩
abbrev S4 : Shape := ⟨1, ![4]⟩
abbrev S24x4x1 : Shape := ⟨3, ![24, 4, 1]⟩
abbrev S32x24x4 : Shape := ⟨3, ![32, 24, 4]⟩
abbrev S24x4x2 : Shape := ⟨3, ![24, 4, 2]⟩
abbrev S32x1x4 : Shape := ⟨3, ![32, 1, 4]⟩
abbrev S32x24 : Shape := ⟨2, ![32, 24]⟩
abbrev S32 : Shape := ⟨1, ![32]⟩

abbrev nBuf : Space → Nat
  | .hbm => 74
  | .vmem => 0
  | .smem => 0
  | _ => 0

abbrev bufTy : (tb : Table) → Fin (tcTables nBuf tb) → BufTy
  | .hbm, ⟨0, _⟩ => ⟨S32x4x131072, .f32⟩
  | .hbm, ⟨1, _⟩ => ⟨S32x4x131072, .f32⟩
  | .hbm, ⟨2, _⟩ => ⟨S24x4, .i32⟩
  | .hbm, ⟨3, _⟩ => ⟨S32x4x131072, .f32⟩
  | .hbm, ⟨4, _⟩ => ⟨S_, .f32⟩
  | .hbm, ⟨5, _⟩ => ⟨S32x4, .f32⟩
  | .hbm, ⟨6, _⟩ => ⟨S32x4x131072, .f32⟩
  | .hbm, ⟨7, _⟩ => ⟨S_, .f32⟩
  | .hbm, ⟨8, _⟩ => ⟨S32x4, .f32⟩
  | .hbm, ⟨9, _⟩ => ⟨S32x4x4, .f32⟩
  | .hbm, ⟨10, _⟩ => ⟨S4, .i32⟩
  | .hbm, ⟨11, _⟩ => ⟨S_, .i32⟩
  | .hbm, ⟨12, _⟩ => ⟨S24x4, .i32⟩
  | .hbm, ⟨13, _⟩ => ⟨S24x4, .i1⟩
  | .hbm, ⟨14, _⟩ => ⟨S_, .i32⟩
  | .hbm, ⟨15, _⟩ => ⟨S24x4, .i32⟩
  | .hbm, ⟨16, _⟩ => ⟨S24x4, .i32⟩
  | .hbm, ⟨17, _⟩ => ⟨S24x4, .i32⟩
  | .hbm, ⟨18, _⟩ => ⟨S24x4x1, .i32⟩
  | .hbm, ⟨19, _⟩ => ⟨S32x24x4, .f32⟩
  | .hbm, ⟨20, _⟩ => ⟨S_, .i32⟩
  | .hbm, ⟨21, _⟩ => ⟨S24x4, .i32⟩
  | .hbm, ⟨22, _⟩ => ⟨S24x4, .i1⟩
  | .hbm, ⟨23, _⟩ => ⟨S_, .i32⟩
  | .hbm, ⟨24, _⟩ => ⟨S24x4, .i32⟩
  | .hbm, ⟨25, _⟩ => ⟨S24x4, .i32⟩
  | .hbm, ⟨26, _⟩ => ⟨S24x4, .i32⟩
  | .hbm, ⟨27, _⟩ => ⟨S_, .i32⟩
  | .hbm, ⟨28, _⟩ => ⟨S4, .i32⟩
  | .hbm, ⟨29, _⟩ => ⟨S4, .i1⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S24x4, .i32⟩
  | .hbm, ⟨35, _⟩ => ⟨S24x4x1, .i32⟩
  | .hbm, ⟨36, _⟩ => ⟨S24x4x1, .i32⟩
  | .hbm, ⟨37, _⟩ => ⟨S24x4x2, .i32⟩
  | .hbm, ⟨38, _⟩ => ⟨S32x24x4, .f32⟩
  | .hbm, ⟨39, _⟩ => ⟨S_, .f32⟩
  | .hbm, ⟨40, _⟩ => ⟨S32x24x4, .f32⟩
  | .hbm, ⟨41, _⟩ => ⟨S32x24x4, .f32⟩
  | .hbm, ⟨42, _⟩ => ⟨S32x24x4, .f32⟩
  | .hbm, ⟨43, _⟩ => ⟨S32x1x4, .f32⟩
  | .hbm, ⟨44, _⟩ => ⟨S32x24x4, .f32⟩
  | .hbm, ⟨45, _⟩ => ⟨S32x24x4, .f32⟩
  | .hbm, ⟨46, _⟩ => ⟨S32x1x4, .f32⟩
  | .hbm, ⟨47, _⟩ => ⟨S_, .f32⟩
  | .hbm, ⟨48, _⟩ => ⟨S32x1x4, .f32⟩
  | .hbm, ⟨49, _⟩ => ⟨S32x1x4, .f32⟩
  | .hbm, ⟨50, _⟩ => ⟨S_, .f32⟩
  | .hbm, ⟨51, _⟩ => ⟨S32x24x4, .f32⟩
  | .hbm, ⟨52, _⟩ => ⟨S32x24x4, .f32⟩
  | .hbm, ⟨53, _⟩ => ⟨S32x24x4, .f32⟩
  | .hbm, ⟨54, _⟩ => ⟨S32x24x4, .f32⟩
  | .hbm, ⟨55, _⟩ => ⟨S32x24x4, .f32⟩
  | .hbm, ⟨56, _⟩ => ⟨S_, .f32⟩
  | .hbm, ⟨57, _⟩ => ⟨S32x24x4, .f32⟩
  | .hbm, ⟨58, _⟩ => ⟨S32x24x4, .f32⟩
  | .hbm, ⟨59, _⟩ => ⟨S_, .f32⟩
  | .hbm, ⟨60, _⟩ => ⟨S32x24x4, .f32⟩
  | .hbm, ⟨61, _⟩ => ⟨S32x24x4, .f32⟩
  | .hbm, ⟨62, _⟩ => ⟨S_, .f32⟩
  | .hbm, ⟨63, _⟩ => ⟨S32x24, .f32⟩
  | .hbm, ⟨64, _⟩ => ⟨S_, .f32⟩
  | .hbm, ⟨65, _⟩ => ⟨S32x24, .f32⟩
  | .hbm, ⟨66, _⟩ => ⟨S32x24, .f32⟩
  | .hbm, ⟨67, _⟩ => ⟨S_, .f32⟩
  | .hbm, ⟨68, _⟩ => ⟨S32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S32x4x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_cst_14 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  reducesTo_S32x4x131072_S32x4_d2 : S32x4x131072.ReducesTo [2] S32x4
  h_S_ : 0 < S_.numel
  bcast_S_S24x4 : S_.BroadcastsInDim S24x4 (![] : Fin 0 → Fin S24x4.rank)
  bcast_S24x4_S24x4x1_0_1 : S24x4.BroadcastsInDim S24x4x1 (![0, 1] : Fin 2 → Fin S24x4x1.rank)
  bcast_S_S4 : S_.BroadcastsInDim S4 (![] : Fin 0 → Fin S4.rank)
  bcast_S4_S24x4_1 : S4.BroadcastsInDim S24x4 (![1] : Fin 1 → Fin S24x4.rank)
  concatenates_S24x4x1_S24x4x1_S24x4x2_d2 : Shape.Concatenates [S24x4x1, S24x4x1] S24x4x2 2
  bcast_S_S32x24x4 : S_.BroadcastsInDim S32x24x4 (![] : Fin 0 → Fin S32x24x4.rank)
  bcast_S32x4_S32x1x4_0_2 : S32x4.BroadcastsInDim S32x1x4 (![0, 2] : Fin 2 → Fin S32x1x4.rank)
  bcast_S32x1x4_S32x24x4_0_1_2 : S32x1x4.BroadcastsInDim S32x24x4 (![0, 1, 2] : Fin 3 → Fin S32x24x4.rank)
  bcast_S_S32x1x4 : S_.BroadcastsInDim S32x1x4 (![] : Fin 0 → Fin S32x1x4.rank)
  reducesTo_S32x24x4_S32x24_d2 : S32x24x4.ReducesTo [2] S32x24
  bcast_S_S32x24 : S_.BroadcastsInDim S32x24 (![] : Fin 0 → Fin S32x24.rank)
  reducesTo_S32x24_S32_d1 : S32x24.ReducesTo [1] S32
  reducesTo_S32_S_d0 : S32.ReducesTo [0] S_
  dot_S32x4x131072_S32x4x131072_S32x4x4_2_2_1_1_0_0_wf : DotDims.WF S32x4x131072 S32x4x131072 S32x4x4 [2] [2] [1] [1] [0] [0]
  gather_S32x4_S24x4x1_S32x24x4_0_1_n_n_1_2_321_wf : GatherDims.WF S32x4 S24x4x1 S32x24x4 [0] [1] [] [1] [] 2 ![32, 1]
  gather_S32x4x4_S24x4x2_S32x24x4_0_12_n_n_12_2_3211_wf : GatherDims.WF S32x4x4 S24x4x2 S32x24x4 [0] [1, 2] [] [1, 2] [] 2 ![32, 1, 1]

variable [Facts₀]

def dot_S32x4x131072_S32x4x131072_S32x4x4_2_2_1_1_0_0 : DotDims S32x4x131072 S32x4x131072 S32x4x4 where
  lhsContracting := [2]
  rhsContracting := [2]
  lhsNonContracting := [1]
  rhsNonContracting := [1]
  lhsBatch := [0]
  rhsBatch := [0]
  wf := dot_S32x4x131072_S32x4x131072_S32x4x4_2_2_1_1_0_0_wf
def gather_S32x4_S24x4x1_S32x24x4_0_1_n_n_1_2_321 : GatherDims S32x4 S24x4x1 S32x24x4 where
  offsetDims := [0]
  collapsedSliceDims := [1]
  operandBatchingDims := []
  startIndicesBatchingDims := []
  startIndexMap := [1]
  indexVectorDim := 2
  sliceSizes := ![32, 1]
  wf := gather_S32x4_S24x4x1_S32x24x4_0_1_n_n_1_2_321_wf
def gather_S32x4x4_S24x4x2_S32x24x4_0_12_n_n_12_2_3211 : GatherDims S32x4x4 S24x4x2 S32x24x4 where
  offsetDims := [0]
  collapsedSliceDims := [1, 2]
  operandBatchingDims := []
  startIndicesBatchingDims := []
  startIndexMap := [1, 2]
  indexVectorDim := 2
  sliceSizes := ![32, 1, 1]
  wf := gather_S32x4x4_S24x4x2_S32x24x4_0_12_n_n_12_2_3211_wf

class Facts : Prop extends Facts₀ where

variable [Facts]
-- ==== Proof.WordRegion.lean ====
/-
  The launch side of the statistics kernel's program: one table constant, the region over a grid of 32 batch rows,
  then 66 host lines that turn the three statistics arrays into the scalar loss.

  The arrays as the region finds them are the launch memory after the one constant line; the lines after the region
  touch only unscoped buffers, allocate nothing and write none of the five arrays the region stages (the two signal
  arrays and the three statistics arrays), so the run of the whole program is the region's run continued by those
  lines. An input window's staging buffer holds its batch row's block whether or not the row was fetched at that point,
  and the two argument arrays, which the region only reads and the later lines never write, end as launched.
-/
import proofs.«161573_j6640019439975_2_alg».proof.Proof.Gen.Kernel.Launch
import proofs.«161573_j6640019439975_2_alg».proof.Proof.Gen.Kernel.Skeleton
import proofs.«161573_j6640019439975_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch memory after the permutation-table constant. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The constant line allocates nothing. -/
theorem hostOps0_fresh : (hostOps0 : List (HloOp τ sig (Elt F))).Forall fun op => op.fresh = ∅ := by
  simp only [List.Forall]; repeat' constructor
/-- Nor does any of the 66 lines after the region. -/
theorem hostOps1_fresh : (hostOps1 : List (HloOp τ sig (Elt F))).Forall fun op => op.fresh = ∅ := by
  simp only [List.Forall]; repeat' constructor

/-- The whole program reduces to its region continued by the 66 later lines, the arrays held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core: the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each later line writes only its own result buffer, which is none of the five staged arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The constant line does not write the first signal array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t` (batch row `t` of its array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first signal's staging buffer holds batch row `t`'s block at point `t`, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second signal. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run whose post has every staged array at what the proof data compute and every bypassing buffer as the later
    lines leave it: the two signal arrays are input windows, so they end at their region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.Kernel.Stats

end
-- ==== Proof.WordBody.lean ====
/-
  The statistics kernel's body at one batch row. It loads the row's two 4 x 131072 blocks (prediction x0, target x1),
  and stores: into the first output buffer the four sums of squares of the target's rows, into the second those of the
  prediction's rows, and into the 4 x 4 third, one row at a time, the cross sums  sum over t of x0[i,t] * x1[j,t].
  The loads it makes of its output buffers are never used. After the body each output buffer is the canon of its
  stores, whatever it held before: one whole-buffer store for each of the first two, four row stores that tile the third.
-/
import proofs.«161573_j6640019439975_2_alg».proof.Proof.Gen.Kernel.Launch
import proofs.«161573_j6640019439975_2_alg».proof.Proof.Gen.Kernel.Skeleton
import proofs.«161573_j6640019439975_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- A whole input block. -/
abbrev rIn : Rect S1x4x131072 := Rect.unit (s := S1x4x131072) ![0, 0, 0] S1x4x131072.size inb_S1x4x131072_S1x4x131072_0_0_0
/-- A whole 1 x 1 x 4 output block. -/
abbrev rRow : Rect S1x1x4 := Rect.unit (s := S1x1x4) ![0, 0, 0] S1x1x4.size inb_S1x1x4_S1x1x4_0_0_0
/-- Row `i` of the 1 x 4 x 4 output block, i = 0 … 3. -/
abbrev rC0 : Rect S1x4x4 := Rect.unit (s := S1x4x4) ![0, 0, 0] S1x1x4.size inb_S1x4x4_S1x1x4_0_0_0
abbrev rC1 : Rect S1x4x4 := Rect.unit (s := S1x4x4) ![0, 1, 0] S1x1x4.size inb_S1x4x4_S1x1x4_0_1_0
abbrev rC2 : Rect S1x4x4 := Rect.unit (s := S1x4x4) ![0, 2, 0] S1x1x4.size inb_S1x4x4_S1x1x4_0_2_0
abbrev rC3 : Rect S1x4x4 := Rect.unit (s := S1x4x4) ![0, 3, 0] S1x1x4.size inb_S1x4x4_S1x1x4_0_3_0

/-! ## What the body leaves in each output buffer -/

/-- The target's sums of squares: one whole-buffer store. -/
def outTd (x1 : Vec F S1x4x131072 .f32) : Vec F S1x1x4 .f32 :=
  View.canon [⟨rRow, k0_pay5 (View.ld x1 rIn)⟩]
/-- The prediction's sums of squares: one whole-buffer store. -/
def outPd (x0 : Vec F S1x4x131072 .f32) : Vec F S1x1x4 .f32 :=
  View.canon [⟨rRow, k0_pay6 (View.ld x0 rIn)⟩]
/-- The cross sums: four row stores, the last first. -/
def outC (x0 x1 : Vec F S1x4x131072 .f32) : Vec F S1x4x4 .f32 :=
  View.canon [⟨rC3, k0_pay2 (k0_pay3 (View.ld x0 rIn)) (k0_pay4 (View.ld x1 rIn))⟩,
    ⟨rC2, k0_pay1 (k0_pay3 (View.ld x0 rIn)) (k0_pay4 (View.ld x1 rIn))⟩,
    ⟨rC1, k0_pay8 (View.ld x0 rIn) (View.ld x1 rIn)⟩,
    ⟨rC0, k0_pay7 (View.ld x0 rIn) (View.ld x1 rIn)⟩]

/-- One whole-buffer store covers a 1 x 1 x 4 buffer. -/
theorem coverRow (p0 : Vec F S1x1x4 .f32) (y : S1x1x4.Idx) :
    ∃ pc ∈ ([⟨rRow, p0⟩] : List (View.Piece (Elt F) S1x1x4 .f32)), y ∈ pc.1.set :=
  View.cover_of_tiled [⟨rRow, p0⟩] S1x1x4.size (by rfl) y
/-- The four row stores tile the 1 x 4 x 4 buffer. -/
theorem coverC (p3 p2 p1 p0 : Vec F S1x1x4 .f32) (y : S1x4x4.Idx) :
    ∃ pc ∈ ([⟨rC3, p3⟩, ⟨rC2, p2⟩, ⟨rC1, p1⟩, ⟨rC0, p0⟩] : List (View.Piece (Elt F) S1x4x4 .f32)), y ∈ pc.1.set :=
  View.cover_of_tiled [⟨rC3, p3⟩, ⟨rC2, p2⟩, ⟨rC1, p1⟩, ⟨rC0, p0⟩] S1x1x4.size (by rfl) y

/-! ## The body's triple -/

set_option maxHeartbeats 4000000 in
/-- On whole staging buffers, the inputs' at contents `x0`, `x1` and the outputs' at anything, the body runs to its
    continuation holding the inputs' as they were and the outputs' at `outTd x1`, `outPd x0`, `outC x0 x1`. -/
theorem sound_kernel (c : Dev nD) (E : Set ℕ) (i : grid0.Coords)
    (arg1 : Memref sig .tc .vmem S1x4x131072 .f32) (harg1 : arg1.IsWhole) (arg2 : Memref sig .tc .vmem S1x4x131072 .f32) (harg2 : arg2.IsWhole)
    (arg3 : Memref sig .tc .vmem S1x1x4 .f32) (harg3 : arg3.IsWhole) (arg4 : Memref sig .tc .vmem S1x1x4 .f32) (harg4 : arg4.IsWhole)
    (arg5 : Memref sig .tc .vmem S1x4x4 .f32) (harg5 : arg5.IsWhole)
    (x0 x1 : Vec F S1x4x131072 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outTd x1) ∗ owns (c : Thread nD τ) arg4 fullShare (outPd x0)
            ∗ owns (c : Thread nD τ) arg5 fullShare (outC x0 x1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverRow _)
  isplitl [H3]
  · iexists _; isplitr
    swap; · iexact H3
    ipureintro
    try dsimp only
    exact View.read_writes_eq_canon _ _ _ (coverRow _)
  iexists _; isplitr
  swap; · iexact H4
  ipureintro
  try dsimp only
  exact View.read_writes_eq_canon _ _ _ (coverC _ _ _ _)

end Cert.Kernel.Stats

end
-- ==== Proof.WordFrame.lean ====
/-
  The statistics kernel's run. The proof data say what each staging buffer holds after the body at grid point t (batch
  row t): the two inputs' buffers their row's blocks, untouched; the three outputs' buffers the body's sums over that
  row's blocks. With the body's triple this is the obligation the launch asks at every point, and the launch theorem for
  a program that continues after its region gives the run: every staged array at what the write-backs of those buffers
  make of it, every other buffer as the 66 later lines leave it. The argument arrays, only read, end as launched.
-/
import proofs.«161573_j6640019439975_2_alg».proof.Proof.WordRegion
import proofs.«161573_j6640019439975_2_alg».proof.Proof.WordBody

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and each
    output's at the body's sums over the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTd (iblk m c 1 t)
    | ⟨3, _⟩ => outPd (iblk m c 0 t)
    | ⟨4, _⟩ => outC (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTd (iblk m c 1 t) := by dsimp only [dats]
theorem after0_3 (c : Dev nD) (t : Fin cfg0.N) : (dats m 0 c).after 3 t = outPd (iblk m c 0 t) := by dsimp only [dats]
theorem after0_4 (c : Dev nD) (t : Fin cfg0.N) : (dats m 0 c).after 4 t = outC (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation at a generic point -/

/-- What the body is called with at point `t`, the five windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The inputs' buffers hold their blocks, so the body's triple applies; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every staged array at what
    the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Stats

end
-- ==== Proof.IdealRegion.lean ====
/-
  The launch side of the statistics kernel's program: one table constant, the region over a grid of 32 batch rows,
  then 66 host lines that turn the three statistics arrays into the scalar loss.

  The arrays as the region finds them are the launch memory after the one constant line; the lines after the region
  touch only unscoped buffers, allocate nothing and write none of the five arrays the region stages (the two signal
  arrays and the three statistics arrays), so the run of the whole program is the region's run continued by those
  lines. An input window's staging buffer holds its batch row's block whether or not the row was fetched at that point,
  and the two argument arrays, which the region only reads and the later lines never write, end as launched.
-/
import proofs.«161573_j6640019439975_2_alg».proof.Proof.Gen.KernelIdeal.Launch
import proofs.«161573_j6640019439975_2_alg».proof.Proof.Gen.KernelIdeal.Skeleton
import proofs.«161573_j6640019439975_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch memory after the permutation-table constant. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The constant line allocates nothing. -/
theorem hostOps0_fresh : (hostOps0 : List (HloOp τ sig (Elt F))).Forall fun op => op.fresh = ∅ := by
  simp only [List.Forall]; repeat' constructor
/-- Nor does any of the 66 lines after the region. -/
theorem hostOps1_fresh : (hostOps1 : List (HloOp τ sig (Elt F))).Forall fun op => op.fresh = ∅ := by
  simp only [List.Forall]; repeat' constructor

/-- The whole program reduces to its region continued by the 66 later lines, the arrays held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core: the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each later line writes only its own result buffer, which is none of the five staged arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The constant line does not write the first signal array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t` (batch row `t` of its array), read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first signal's staging buffer holds batch row `t`'s block at point `t`, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second signal. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run whose post has every staged array at what the proof data compute and every bypassing buffer as the later
    lines leave it: the two signal arrays are input windows, so they end at their region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.KernelIdeal.Stats

end
-- ==== Proof.IdealBody.lean ====
/-
  The statistics kernel's body at one batch row. It loads the row's two 4 x 131072 blocks (prediction x0, target x1),
  and stores: into the first output buffer the four sums of squares of the target's rows, into the second those of the
  prediction's rows, and into the 4 x 4 third, one row at a time, the cross sums  sum over t of x0[i,t] * x1[j,t].
  The loads it makes of its output buffers are never used. After the body each output buffer is the canon of its
  stores, whatever it held before: one whole-buffer store for each of the first two, four row stores that tile the third.
-/
import proofs.«161573_j6640019439975_2_alg».proof.Proof.Gen.KernelIdeal.Launch
import proofs.«161573_j6640019439975_2_alg».proof.Proof.Gen.KernelIdeal.Skeleton
import proofs.«161573_j6640019439975_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- A whole input block. -/
abbrev rIn : Rect S1x4x131072 := Rect.unit (s := S1x4x131072) ![0, 0, 0] S1x4x131072.size inb_S1x4x131072_S1x4x131072_0_0_0
/-- A whole 1 x 1 x 4 output block. -/
abbrev rRow : Rect S1x1x4 := Rect.unit (s := S1x1x4) ![0, 0, 0] S1x1x4.size inb_S1x1x4_S1x1x4_0_0_0
/-- Row `i` of the 1 x 4 x 4 output block, i = 0 … 3. -/
abbrev rC0 : Rect S1x4x4 := Rect.unit (s := S1x4x4) ![0, 0, 0] S1x1x4.size inb_S1x4x4_S1x1x4_0_0_0
abbrev rC1 : Rect S1x4x4 := Rect.unit (s := S1x4x4) ![0, 1, 0] S1x1x4.size inb_S1x4x4_S1x1x4_0_1_0
abbrev rC2 : Rect S1x4x4 := Rect.unit (s := S1x4x4) ![0, 2, 0] S1x1x4.size inb_S1x4x4_S1x1x4_0_2_0
abbrev rC3 : Rect S1x4x4 := Rect.unit (s := S1x4x4) ![0, 3, 0] S1x1x4.size inb_S1x4x4_S1x1x4_0_3_0

/-! ## What the body leaves in each output buffer -/

/-- The target's sums of squares: one whole-buffer store. -/
def outTd (x1 : Vec F S1x4x131072 .f32) : Vec F S1x1x4 .f32 :=
  View.canon [⟨rRow, k0_pay5 (View.ld x1 rIn)⟩]
/-- The prediction's sums of squares: one whole-buffer store. -/
def outPd (x0 : Vec F S1x4x131072 .f32) : Vec F S1x1x4 .f32 :=
  View.canon [⟨rRow, k0_pay6 (View.ld x0 rIn)⟩]
/-- The cross sums: four row stores, the last first. -/
def outC (x0 x1 : Vec F S1x4x131072 .f32) : Vec F S1x4x4 .f32 :=
  View.canon [⟨rC3, k0_pay2 (k0_pay3 (View.ld x0 rIn)) (k0_pay4 (View.ld x1 rIn))⟩,
    ⟨rC2, k0_pay1 (k0_pay3 (View.ld x0 rIn)) (k0_pay4 (View.ld x1 rIn))⟩,
    ⟨rC1, k0_pay8 (View.ld x0 rIn) (View.ld x1 rIn)⟩,
    ⟨rC0, k0_pay7 (View.ld x0 rIn) (View.ld x1 rIn)⟩]

/-- One whole-buffer store covers a 1 x 1 x 4 buffer. -/
theorem coverRow (p0 : Vec F S1x1x4 .f32) (y : S1x1x4.Idx) :
    ∃ pc ∈ ([⟨rRow, p0⟩] : List (View.Piece (Elt F) S1x1x4 .f32)), y ∈ pc.1.set :=
  View.cover_of_tiled [⟨rRow, p0⟩] S1x1x4.size (by rfl) y
/-- The four row stores tile the 1 x 4 x 4 buffer. -/
theorem coverC (p3 p2 p1 p0 : Vec F S1x1x4 .f32) (y : S1x4x4.Idx) :
    ∃ pc ∈ ([⟨rC3, p3⟩, ⟨rC2, p2⟩, ⟨rC1, p1⟩, ⟨rC0, p0⟩] : List (View.Piece (Elt F) S1x4x4 .f32)), y ∈ pc.1.set :=
  View.cover_of_tiled [⟨rC3, p3⟩, ⟨rC2, p2⟩, ⟨rC1, p1⟩, ⟨rC0, p0⟩] S1x1x4.size (by rfl) y

/-! ## The body's triple -/

set_option maxHeartbeats 4000000 in
/-- On whole staging buffers, the inputs' at contents `x0`, `x1` and the outputs' at anything, the body runs to its
    continuation holding the inputs' as they were and the outputs' at `outTd x1`, `outPd x0`, `outC x0 x1`. -/
theorem sound_kernel (c : Dev nD) (E : Set ℕ) (i : grid0.Coords)
    (arg1 : Memref sig .tc .vmem S1x4x131072 .f32) (harg1 : arg1.IsWhole) (arg2 : Memref sig .tc .vmem S1x4x131072 .f32) (harg2 : arg2.IsWhole)
    (arg3 : Memref sig .tc .vmem S1x1x4 .f32) (harg3 : arg3.IsWhole) (arg4 : Memref sig .tc .vmem S1x1x4 .f32) (harg4 : arg4.IsWhole)
    (arg5 : Memref sig .tc .vmem S1x4x4 .f32) (harg5 : arg5.IsWhole)
    (x0 x1 : Vec F S1x4x131072 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outTd x1) ∗ owns (c : Thread nD τ) arg4 fullShare (outPd x0)
            ∗ owns (c : Thread nD τ) arg5 fullShare (outC x0 x1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverRow _)
  isplitl [H3]
  · iexists _; isplitr
    swap; · iexact H3
    ipureintro
    try dsimp only
    exact View.read_writes_eq_canon _ _ _ (coverRow _)
  iexists _; isplitr
  swap; · iexact H4
  ipureintro
  try dsimp only
  exact View.read_writes_eq_canon _ _ _ (coverC _ _ _ _)

end Cert.KernelIdeal.Stats

end
-- ==== Proof.IdealFrame.lean ====
/-
  The statistics kernel's run. The proof data say what each staging buffer holds after the body at grid point t (batch
  row t): the two inputs' buffers their row's blocks, untouched; the three outputs' buffers the body's sums over that
  row's blocks. With the body's triple this is the obligation the launch asks at every point, and the launch theorem for
  a program that continues after its region gives the run: every staged array at what the write-backs of those buffers
  make of it, every other buffer as the 66 later lines leave it. The argument arrays, only read, end as launched.
-/
import proofs.«161573_j6640019439975_2_alg».proof.Proof.IdealRegion
import proofs.«161573_j6640019439975_2_alg».proof.Proof.IdealBody

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and each
    output's at the body's sums over the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTd (iblk m c 1 t)
    | ⟨3, _⟩ => outPd (iblk m c 0 t)
    | ⟨4, _⟩ => outC (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTd (iblk m c 1 t) := by dsimp only [dats]
theorem after0_3 (c : Dev nD) (t : Fin cfg0.N) : (dats m 0 c).after 3 t = outPd (iblk m c 0 t) := by dsimp only [dats]
theorem after0_4 (c : Dev nD) (t : Fin cfg0.N) : (dats m 0 c).after 4 t = outC (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation at a generic point -/

/-- What the body is called with at point `t`, the five windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The inputs' buffers hold their blocks, so the body's triple applies; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every staged array at what
    the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Stats

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.IdealSums.lean ====
/-
  The body's stored values at an entry, on the extended reals. With x0 the prediction's block and x1 the target's
  (each 1 x 4 x 131072, read as the matrix of its four rows):
    the first output's entry j is    sum over t of x1[j,t] * x1[j,t],
    the second output's entry j is   sum over t of x0[j,t] * x0[j,t],
    row i of the third, entry j, is  sum over t of x0[i,t] * x1[j,t]
  (row i of x0 cut out, repeated down the four rows and multiplied entrywise into x1, then summed along the lanes).
  A lane reduction from the zero word is the plain sum; the casts between [4], [1,4] and [1,1,4] move no entry.
-/
import proofs.«161573_j6640019439975_2_alg».proof.Proof.Gen.KernelIdeal.Skeleton
import proofs.«161573_j6640019439975_2_alg».proof.Proof.LibRowOps
import proofs.«161573_j6640019439975_2_alg».proof.Proof.LibTileForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stats

open Cert.KernelIdeal Cert.KernelIdeal.Gen
open Idealize.ShloMosaic Idealize.ShloMosaic.ValueIdx

/-- A [b] vector viewed as [1, 1, b] reads, at (u, v, c), the vector at c. -/
theorem vecAsSlab_apply {b : ℕ} {α : Type} (x : (⟨1, ![b]⟩ : Shape).Idx → α)
    (h : (⟨1, ![b]⟩ : Shape).ShapeCasts ⟨3, ![1, 1, b]⟩) (u v : Fin 1) (c : Fin b) :
    shapeCast ⟨3, ![1, 1, b]⟩ x h (ix3 u v c) = x (ix1 c) :=
  shapeCast_apply x h _ _ (by
    have hu : u.val = 0 := by omega
    have hv : v.val = 0 := by omega
    rw [Shape.rowMajor_val_three, Shape.rowMajor_val_one]
    show c.val = (u.val * 1 + v.val) * b + c.val
    rw [hu, hv]; simp)

/-- The prediction's block as the matrix of its four rows. -/
theorem rows0_apply (v0 : Vec Ideal S1x4x131072 .f32) (i : Fin 4) (k : Fin 131072) :
    k0_pay3 v0 (ix2 i k) = v0 (ix3 (0 : Fin 1) i k) := by
  unfold k0_pay3
  exact TileForms.slabAsMatrix_apply v0 _ i k

/-- The target's block as the matrix of its four rows. -/
theorem rows1_apply (v2 : Vec Ideal S1x4x131072 .f32) (i : Fin 4) (k : Fin 131072) :
    k0_pay4 v2 (ix2 i k) = v2 (ix3 (0 : Fin 1) i k) := by
  unfold k0_pay4
  exact TileForms.slabAsMatrix_apply v2 _ i k

/-- The lane sum of a matrix's entrywise square, at row j. -/
theorem squareSum_apply (X : FVec Ideal S4x131072 .f32) (j : Fin 4) :
    multiReduction .add [1] S4 (mulf X X) 0x00000000#32 reduces_S4x131072_S4 (.inl rfl) rfl (ix1 j)
      = ∑ k : Fin 131072, X (ix2 j k) * X (ix2 j k) := by
  refine (Gcn.Lib.rowSum_apply (a := 4) (b := 131072) (mulf X X) reduces_S4x131072_S4 (.inl rfl) rfl j).trans ?_
  exact Finset.sum_congr rfl fun k _ => mulf_apply X X (ix2 j k)

/-- Row `i` of P (cut at the literal offset o = i), repeated down the four rows and multiplied into T, summed along
    the lanes: at row j the sum over t of P[i,t] * T[j,t]. -/
theorem crossSum_apply (P T : FVec Ideal S4x131072 .f32) (o : ℕ) (i : Fin 4) (hi : i.val = o)
    (hs : S4x131072.Slices ![o, 0] S1x131072) (j : Fin 4) :
    multiReduction .add [1] S4 (mulf (broadcastTo S4x131072 (shapeCast S1x131072 (shapeCast S131072
        (extractStridedSlice S1x131072 ![o, 0] P hs) shapeCasts_S1x131072_S131072) shapeCasts_S131072_S1x131072)
        broadcasts_S1x131072_S4x131072) T) 0x00000000#32 reduces_S4x131072_S4 (.inl rfl) rfl (ix1 j)
      = ∑ k : Fin 131072, P (ix2 i k) * T (ix2 j k) := by
  refine (Gcn.Lib.rowSum_apply (a := 4) (b := 131072) _ reduces_S4x131072_S4 (.inl rfl) rfl j).trans ?_
  refine Finset.sum_congr rfl fun k _ => ?_
  rw [mulf_apply, shapeCast_shapeCast]
  exact congrArg (· * T (ix2 j k)) (TileForms.blockRow_apply P o i hi hs broadcasts_S1x131072_S4x131072 j k)

/-- The first output's stored value: the target's sums of squares. -/
theorem storedTd_apply (x1 : Vec Ideal S1x4x131072 .f32) (u v : Fin 1) (j : Fin 4) :
    k0_pay5 x1 (ix3 u v j) = ∑ k : Fin 131072, x1 (ix3 (0 : Fin 1) j k) * x1 (ix3 (0 : Fin 1) j k) := by
  unfold k0_pay5
  refine (TileForms.matrixAsSlab_apply _ shapeCasts_S1x4_S1x1x4 u v j).trans ?_
  obtain rfl : v = 0 := Subsingleton.elim _ _
  refine (TileForms.rowCast_apply _ shapeCasts_S4_S1x4 j).trans ?_
  refine (squareSum_apply (k0_pay4 x1) j).trans ?_
  exact Finset.sum_congr rfl fun k _ => by rw [rows1_apply]

/-- The second output's stored value: the prediction's sums of squares. -/
theorem storedPd_apply (x0 : Vec Ideal S1x4x131072 .f32) (u v : Fin 1) (j : Fin 4) :
    k0_pay6 x0 (ix3 u v j) = ∑ k : Fin 131072, x0 (ix3 (0 : Fin 1) j k) * x0 (ix3 (0 : Fin 1) j k) := by
  unfold k0_pay6
  refine (TileForms.matrixAsSlab_apply _ shapeCasts_S1x4_S1x1x4 u v j).trans ?_
  obtain rfl : v = 0 := Subsingleton.elim _ _
  refine (TileForms.rowCast_apply _ shapeCasts_S4_S1x4 j).trans ?_
  refine (squareSum_apply (k0_pay3 x0) j).trans ?_
  exact Finset.sum_congr rfl fun k _ => by rw [rows0_apply]

/-- Row 0 of the third output's stored values. -/
theorem storedC0_apply (x0 x1 : Vec Ideal S1x4x131072 .f32) (u v : Fin 1) (j : Fin 4) :
    k0_pay7 x0 x1 (ix3 u v j) = ∑ k : Fin 131072, x0 (ix3 (0 : Fin 1) (0 : Fin 4) k) * x1 (ix3 (0 : Fin 1) j k) := by
  unfold k0_pay7
  refine (vecAsSlab_apply _ shapeCasts_S4_S1x1x4 u v j).trans ?_
  refine (crossSum_apply (k0_pay3 x0) (k0_pay4 x1) 0 0 rfl slices_S4x131072_o0_0_S1x131072 j).trans ?_
  exact Finset.sum_congr rfl fun k _ => by rw [rows0_apply, rows1_apply]

/-- Row 1. -/
theorem storedC1_apply (x0 x1 : Vec Ideal S1x4x131072 .f32) (u v : Fin 1) (j : Fin 4) :
    k0_pay8 x0 x1 (ix3 u v j) = ∑ k : Fin 131072, x0 (ix3 (0 : Fin 1) (1 : Fin 4) k) * x1 (ix3 (0 : Fin 1) j k) := by
  unfold k0_pay8
  refine (vecAsSlab_apply _ shapeCasts_S4_S1x1x4 u v j).trans ?_
  refine (crossSum_apply (k0_pay3 x0) (k0_pay4 x1) 1 1 rfl slices_S4x131072_o1_0_S1x131072 j).trans ?_
  exact Finset.sum_congr rfl fun k _ => by rw [rows0_apply, rows1_apply]

/-- Row 2 (its value is stated over the two blocks already viewed as matrices). -/
theorem storedC2_apply (x0 x1 : Vec Ideal S1x4x131072 .f32) (u v : Fin 1) (j : Fin 4) :
    k0_pay1 (k0_pay3 x0) (k0_pay4 x1) (ix3 u v j) = ∑ k : Fin 131072, x0 (ix3 (0 : Fin 1) (2 : Fin 4) k) * x1 (ix3 (0 : Fin 1) j k) := by
  unfold k0_pay1
  refine (vecAsSlab_apply _ shapeCasts_S4_S1x1x4 u v j).trans ?_
  refine (crossSum_apply (k0_pay3 x0) (k0_pay4 x1) 2 2 rfl slices_S4x131072_o2_0_S1x131072 j).trans ?_
  exact Finset.sum_congr rfl fun k _ => by rw [rows0_apply, rows1_apply]

/-- Row 3. -/
theorem storedC3_apply (x0 x1 : Vec Ideal S1x4x131072 .f32) (u v : Fin 1) (j : Fin 4) :
    k0_pay2 (k0_pay3 x0) (k0_pay4 x1) (ix3 u v j) = ∑ k : Fin 131072, x0 (ix3 (0 : Fin 1) (3 : Fin 4) k) * x1 (ix3 (0 : Fin 1) j k) := by
  unfold k0_pay2
  refine (vecAsSlab_apply _ shapeCasts_S4_S1x1x4 u v j).trans ?_
  refine (crossSum_apply (k0_pay3 x0) (k0_pay4 x1) 3 3 rfl slices_S4x131072_o3_0_S1x131072 j).trans ?_
  exact Finset.sum_congr rfl fun k _ => by rw [rows0_apply, rows1_apply]

end Cert.KernelIdeal.Stats

end
-- ==== Proof.IdealArrays.lean ====
/-
  The three statistics arrays after the region, on the extended reals. Grid point t stages batch row t of every array
  (every window's block index at t is (t, 0, 0)), so what point t writes back is batch row t of ONE function of the
  argument arrays, and the 32 blocks tile each output array:
    the first  [32,1,4] array holds at (b,0,j)  sum over t of target[b,j,t]^2,
    the second [32,1,4] array holds at (b,0,j)  sum over t of pred[b,j,t]^2,
    the [32,4,4] array holds at (b,i,j)         sum over t of pred[b,i,t] * target[b,j,t].
-/
import proofs.«161573_j6640019439975_2_alg».proof.Proof.IdealFrame
import proofs.«161573_j6640019439975_2_alg».proof.Proof.IdealSums

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The statistics as functions of the argument arrays -/

/-- Row (b, j)'s sum of squares. -/
def sumSq (a : FVec Ideal S32x4x131072 .f32) (b : Fin 32) (j : Fin 4) : EReal :=
  ∑ k : Fin 131072, a (ix3 b j k) * a (ix3 b j k)
/-- Batch row b's cross sum of prediction row i with target row j. -/
def crossSum (a0 a1 : FVec Ideal S32x4x131072 .f32) (b : Fin 32) (i j : Fin 4) : EReal :=
  ∑ k : Fin 131072, a0 (ix3 b i k) * a1 (ix3 b j k)
/-- A [32,1,4] array of sums of squares. -/
def GSq (a : FVec Ideal S32x4x131072 .f32) : FVec Ideal S32x1x4 .f32 := fun z => sumSq a (z 0) (z 2)
/-- The [32,4,4] array of cross sums. -/
def GC (a0 a1 : FVec Ideal S32x4x131072 .f32) : FVec Ideal S32x4x4 .f32 := fun z => crossSum a0 a1 (z 0) (z 1) (z 2)

/-! ## The grid: point t is batch row t -/

theorem hz3 : (![0, 0, 0] : Fin 3 → Nat) = fun _ => 0 := funext fun a => by fin_cases a <;> rfl

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem t_lt (t : Fin cfg0.N) : t.val < 32 := Nat.lt_of_lt_of_eq t.isLt N_0

/-- The prediction's block at point t is batch row t of the prediction array. -/
theorem iblk0_apply (c : Dev nD) (t : Fin cfg0.N) (i : Fin 4) (k : Fin 131072) :
    (iblk m c 0 t : Vec Ideal S1x4x131072 .f32) (ix3 (0 : Fin 1) i k) = V m c main_arg0 (ix3 (⟨t.val, t_lt t⟩ : Fin 32) i k) := by
  obtain ⟨⟨e0, e1, e2⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 4 + 1 * i.val = i.val; omega
  | ⟨2, _⟩ => show win0_0.index t (2 : Fin 3) * 131072 + 1 * k.val = k.val; omega

/-- The target's block at point t is batch row t of the target array. -/
theorem iblk1_apply (c : Dev nD) (t : Fin cfg0.N) (i : Fin 4) (k : Fin 131072) :
    (iblk m c 1 t : Vec Ideal S1x4x131072 .f32) (ix3 (0 : Fin 1) i k) = V m c main_arg1 (ix3 (⟨t.val, t_lt t⟩ : Fin 32) i k) := by
  obtain ⟨-, ⟨e0, e1, e2⟩, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 4 + 1 * i.val = i.val; omega
  | ⟨2, _⟩ => show win0_1.index t (2 : Fin 3) * 131072 + 1 * k.val = k.val; omega

/-! ## One block of each output, over variables -/

/-- A stored vector of row sums of squares of a block x that is batch row b of the array a is row b of `GSq a`. -/
theorem sqBlock_eq (p : FVec Ideal S1x1x4 .f32) (x : Vec Ideal S1x4x131072 .f32)
    (hp : ∀ (u v : Fin 1) (j : Fin 4), p (ix3 u v j) = ∑ k : Fin 131072, x (ix3 (0 : Fin 1) j k) * x (ix3 (0 : Fin 1) j k))
    (a : FVec Ideal S32x4x131072 .f32) (b : Fin 32)
    (hx : ∀ (i : Fin 4) (k : Fin 131072), x (ix3 (0 : Fin 1) i k) = a (ix3 b i k))
    (y : S1x1x4.Idx) (z : S32x1x4.Idx) (hz0 : (z 0).val = b.val) (hz2 : (z 2).val = (y 2).val) :
    p y = GSq a z := by
  obtain ⟨u, v, j, rfl⟩ : ∃ (u v : Fin 1) (j : Fin 4), y = ix3 u v j := ⟨y 0, y 1, y 2, eq_ix3 y⟩
  rw [hp]
  unfold GSq sumSq
  have e0 : (z 0 : Fin 32) = b := Fin.ext hz0
  have e2 : (z 2 : Fin 4) = j := Fin.ext hz2
  rw [e0, e2]
  exact Finset.sum_congr rfl fun k _ => by rw [hx]

/-- The cross sums of a block pair: at (u, i, j) the sum over t of x0[i,t] * x1[j,t]. -/
def blockC (x0 x1 : Vec Ideal S1x4x131072 .f32) : Vec Ideal S1x4x4 .f32 :=
  fun y => ∑ k : Fin 131072, x0 (ix3 (0 : Fin 1) (y 1) k) * x1 (ix3 (0 : Fin 1) (y 2) k)

/-- A row vector of cross sums of row i, stored through row i's rectangle (offset o = i), is that rectangle's part of
    `blockC`. -/
theorem rowPiece_eq (x0 x1 : Vec Ideal S1x4x131072 .f32) (o : ℕ) (i : Fin 4) (hi : i.val = o)
    (inb : ∀ a, (![0, o, 0] : Fin 3 → ℕ) a + S1x1x4.size a ≤ S1x4x4.size a)
    (p : FVec Ideal S1x1x4 .f32)
    (hp : ∀ (u v : Fin 1) (j : Fin 4), p (ix3 u v j) = ∑ k : Fin 131072, x0 (ix3 (0 : Fin 1) i k) * x1 (ix3 (0 : Fin 1) j k))
    (x : S1x1x4.Idx) :
    p x = blockC x0 x1 ((Rect.unit (s := S1x4x4) ![0, o, 0] S1x1x4.size inb).emb x) := by
  obtain ⟨u, v, j, rfl⟩ : ∃ (u v : Fin 1) (j : Fin 4), x = ix3 u v j := ⟨x 0, x 1, x 2, eq_ix3 x⟩
  rw [hp]
  unfold blockC
  refine Finset.sum_congr rfl fun k _ => ?_
  have h1 : i = ((Rect.unit (s := S1x4x4) ![0, o, 0] S1x1x4.size inb).emb (ix3 u v j)) 1 :=
    Fin.ext (by show i.val = o + 1 * v.val; omega)
  have h2 : j = ((Rect.unit (s := S1x4x4) ![0, o, 0] S1x1x4.size inb).emb (ix3 u v j)) 2 :=
    Fin.ext (by show j.val = 0 + 1 * j.val; omega)
  exact congrArg₂ (fun (a b : Fin 4) => x0 (ix3 (0 : Fin 1) a k) * x1 (ix3 (0 : Fin 1) b k)) h1 h2

/-! ## What the body leaves, at an entry -/

theorem outTd_apply (x1 : Vec Ideal S1x4x131072 .f32) (u v : Fin 1) (j : Fin 4) :
    outTd x1 (ix3 u v j) = ∑ k : Fin 131072, x1 (ix3 (0 : Fin 1) j k) * x1 (ix3 (0 : Fin 1) j k) := by
  unfold outTd
  rw [View.canon_unit_zero hz3, View.ld_unit_zero (S := S1x4x131072) hz3]
  exact storedTd_apply x1 u v j

theorem outPd_apply (x0 : Vec Ideal S1x4x131072 .f32) (u v : Fin 1) (j : Fin 4) :
    outPd x0 (ix3 u v j) = ∑ k : Fin 131072, x0 (ix3 (0 : Fin 1) j k) * x0 (ix3 (0 : Fin 1) j k) := by
  unfold outPd
  rw [View.canon_unit_zero hz3, View.ld_unit_zero (S := S1x4x131072) hz3]
  exact storedPd_apply x0 u v j

/-- The four row stores are the four row rectangles' parts of one function, and they tile the block. -/
theorem outC_eq (x0 x1 : Vec Ideal S1x4x131072 .f32) (y : S1x4x4.Idx) : outC x0 x1 y = blockC x0 x1 y := by
  unfold outC
  simp only [View.ld_unit_zero (S := S1x4x131072) hz3]
  refine View.canon_apply_of_pieces (blockC x0 x1) _ ?_ y (coverC _ _ _ _ y)
  intro p hp x
  simp only [List.mem_cons, List.mem_nil_iff, or_false] at hp
  rcases hp with rfl | rfl | rfl | rfl
  · exact rowPiece_eq x0 x1 3 3 rfl inb_S1x4x4_S1x1x4_0_3_0 _ (fun u v j => storedC3_apply x0 x1 u v j) x
  · exact rowPiece_eq x0 x1 2 2 rfl inb_S1x4x4_S1x1x4_0_2_0 _ (fun u v j => storedC2_apply x0 x1 u v j) x
  · exact rowPiece_eq x0 x1 1 1 rfl inb_S1x4x4_S1x1x4_0_1_0 _ (fun u v j => storedC1_apply x0 x1 u v j) x
  · exact rowPiece_eq x0 x1 0 0 rfl inb_S1x4x4_S1x1x4_0_0_0 _ (fun u v j => storedC0_apply x0 x1 u v j) x

/-- A block of cross sums of blocks that are batch row b of the two arrays is row b of `GC`. -/
theorem crossBlock_eq (x0 x1 : Vec Ideal S1x4x131072 .f32) (a0 a1 : FVec Ideal S32x4x131072 .f32) (b : Fin 32)
    (hx0 : ∀ (i : Fin 4) (k : Fin 131072), x0 (ix3 (0 : Fin 1) i k) = a0 (ix3 b i k))
    (hx1 : ∀ (i : Fin 4) (k : Fin 131072), x1 (ix3 (0 : Fin 1) i k) = a1 (ix3 b i k))
    (y : S1x4x4.Idx) (z : S32x4x4.Idx) (hz0 : (z 0).val = b.val) (hz1 : (z 1).val = (y 1).val) (hz2 : (z 2).val = (y 2).val) :
    outC x0 x1 y = GC a0 a1 z := by
  obtain ⟨u, i, j, rfl⟩ : ∃ (u : Fin 1) (i j : Fin 4), y = ix3 u i j := ⟨y 0, y 1, y 2, eq_ix3 y⟩
  rw [outC_eq]
  unfold GC crossSum
  have e0 : (z 0 : Fin 32) = b := Fin.ext hz0
  have e1 : (z 1 : Fin 4) = i := Fin.ext hz1
  have e2 : (z 2 : Fin 4) = j := Fin.ext hz2
  rw [e0, e1, e2]
  show ∑ k : Fin 131072, x0 (ix3 (0 : Fin 1) i k) * x1 (ix3 (0 : Fin 1) j k) = _
  exact Finset.sum_congr rfl fun k _ => by rw [hx0, hx1]

/-! ## What each point writes back -/

theorem flushed2_eq (c : Dev nD) (t : Fin cfg0.N) :
    (dats m 0 c).flushed 2 t = ((cfg0.win 2).blk t).view.read (Elt Ideal) (GSq (V m c main_arg1)) := by
  show (cfg0.win 2).cut (grid0.coords t) ((dats m 0 c).after 2 t) = _
  rw [after0_2]
  obtain ⟨-, -, ⟨e0, e1, e2⟩, -⟩ := idx_facts t
  funext y
  rw [View.read_apply]
  generalize hg : GSq (V m c main_arg1) (((cfg0.win 2).blk t).view.emb y) = g
  show outTd (iblk m c 1 t) y = g
  rw [← hg]
  refine sqBlock_eq (outTd (iblk m c 1 t)) (iblk m c 1 t) (fun u v j => outTd_apply _ u v j) (V m c main_arg1)
    (⟨t.val, t_lt t⟩ : Fin 32) (iblk1_apply m c t) y _ ?_ ?_
  · show win0_2.index t (0 : Fin 3) * 1 + 1 * (y 0).val = t.val
    have h0 : (y 0).val < 1 := (y 0).isLt
    omega
  · show win0_2.index t (2 : Fin 3) * 4 + 1 * (y 2).val = (y 2).val
    omega

theorem flushed3_eq (c : Dev nD) (t : Fin cfg0.N) :
    (dats m 0 c).flushed 3 t = ((cfg0.win 3).blk t).view.read (Elt Ideal) (GSq (V m c main_arg0)) := by
  show (cfg0.win 3).cut (grid0.coords t) ((dats m 0 c).after 3 t) = _
  rw [after0_3]
  obtain ⟨-, -, -, ⟨e0, e1, e2⟩, -⟩ := idx_facts t
  funext y
  rw [View.read_apply]
  generalize hg : GSq (V m c main_arg0) (((cfg0.win 3).blk t).view.emb y) = g
  show outPd (iblk m c 0 t) y = g
  rw [← hg]
  refine sqBlock_eq (outPd (iblk m c 0 t)) (iblk m c 0 t) (fun u v j => outPd_apply _ u v j) (V m c main_arg0)
    (⟨t.val, t_lt t⟩ : Fin 32) (iblk0_apply m c t) y _ ?_ ?_
  · show win0_3.index t (0 : Fin 3) * 1 + 1 * (y 0).val = t.val
    have h0 : (y 0).val < 1 := (y 0).isLt
    omega
  · show win0_3.index t (2 : Fin 3) * 4 + 1 * (y 2).val = (y 2).val
    omega

theorem flushed4_eq (c : Dev nD) (t : Fin cfg0.N) :
    (dats m 0 c).flushed 4 t = ((cfg0.win 4).blk t).view.read (Elt Ideal) (GC (V m c main_arg0) (V m c main_arg1)) := by
  show (cfg0.win 4).cut (grid0.coords t) ((dats m 0 c).after 4 t) = _
  rw [after0_4]
  obtain ⟨-, -, -, -, ⟨e0, e1, e2⟩⟩ := idx_facts t
  funext y
  rw [View.read_apply]
  generalize hg : GC (V m c main_arg0) (V m c main_arg1) (((cfg0.win 4).blk t).view.emb y) = g
  show outC (iblk m c 0 t) (iblk m c 1 t) y = g
  rw [← hg]
  refine crossBlock_eq (iblk m c 0 t) (iblk m c 1 t) (V m c main_arg0) (V m c main_arg1)
    (⟨t.val, t_lt t⟩ : Fin 32) (iblk0_apply m c t) (iblk1_apply m c t) y _ ?_ ?_ ?_
  · show win0_4.index t (0 : Fin 3) * 1 + 1 * (y 0).val = t.val
    have h0 : (y 0).val < 1 := (y 0).isLt
    omega
  · show win0_4.index t (1 : Fin 3) * 4 + 1 * (y 1).val = (y 1).val
    omega
  · show win0_4.index t (2 : Fin 3) * 4 + 1 * (y 2).val = (y 2).val
    omega

/-! ## The 32 blocks tile each output array -/

theorem mem_blk2 (t : Fin cfg0.N) (i : S32x1x4.Idx) :
    i ∈ ((cfg0.win 2).blk t).view.set ↔ ∀ a : Fin 3, win0_2.index t a * S1x1x4.size a ≤ (i a).val ∧ (i a).val < win0_2.index t a * S1x1x4.size a + S1x1x4.size a := by
  show i ∈ ((View.whole main_v0_0).slice (win0_2.rect t)).set ↔ _
  rw [View.set_slice_whole, Rect.mem_set_unit]
  exact Iff.rfl
theorem mem_blk3 (t : Fin cfg0.N) (i : S32x1x4.Idx) :
    i ∈ ((cfg0.win 3).blk t).view.set ↔ ∀ a : Fin 3, win0_3.index t a * S1x1x4.size a ≤ (i a).val ∧ (i a).val < win0_3.index t a * S1x1x4.size a + S1x1x4.size a := by
  show i ∈ ((View.whole main_v0_1).slice (win0_3.rect t)).set ↔ _
  rw [View.set_slice_whole, Rect.mem_set_unit]
  exact Iff.rfl
theorem mem_blk4 (t : Fin cfg0.N) (i : S32x4x4.Idx) :
    i ∈ ((cfg0.win 4).blk t).view.set ↔ ∀ a : Fin 3, win0_4.index t a * S1x4x4.size a ≤ (i a).val ∧ (i a).val < win0_4.index t a * S1x4x4.size a + S1x4x4.size a := by
  show i ∈ ((View.whole main_v0_2).slice (win0_4.rect t)).set ↔ _
  rw [View.set_slice_whole, Rect.mem_set_unit]
  exact Iff.rfl

/-- Entry (b, ·, ·) of an output array is in point b's block. -/
theorem cover2 (i : S32x1x4.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 4 := (i 2).isLt
  obtain ⟨t, ht⟩ : ∃ t : Fin cfg0.N, t.val = (i 0).val := ⟨⟨(i 0).val, by rw [show cfg0.N = 32 from N_0]; exact h0⟩, rfl⟩
  obtain ⟨-, -, ⟨e0, e1, e2⟩, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 4 ≤ (i 2).val ∧ (i 2).val < win0_2.index t (2 : Fin 3) * 4 + 4; omega
theorem cover3 (i : S32x1x4.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 4 := (i 2).isLt
  obtain ⟨t, ht⟩ : ∃ t : Fin cfg0.N, t.val = (i 0).val := ⟨⟨(i 0).val, by rw [show cfg0.N = 32 from N_0]; exact h0⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4 ≤ (i 2).val ∧ (i 2).val < win0_3.index t (2 : Fin 3) * 4 + 4; omega
theorem cover4 (i : S32x4x4.Idx) : ∃ t : Fin cfg0.N, (cfg0.win 4).flush t = true ∧ i ∈ ((cfg0.win 4).blk t).view.set := by
  have h0 : (i 0).val < 32 := (i 0).isLt
  have h1 : (i 1).val < 4 := (i 1).isLt
  have h2 : (i 2).val < 4 := (i 2).isLt
  obtain ⟨t, ht⟩ : ∃ t : Fin cfg0.N, t.val = (i 0).val := ⟨⟨(i 0).val, by rw [show cfg0.N = 32 from N_0]; exact h0⟩, rfl⟩
  obtain ⟨-, -, -, -, ⟨e0, e1, e2⟩⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4 ≤ (i 1).val ∧ (i 1).val < win0_4.index t (1 : Fin 3) * 4 + 4; omega
  | ⟨2, _⟩ => show win0_4.index t (2 : Fin 3) * 4 ≤ (i 2).val ∧ (i 2).val < win0_4.index t (2 : Fin 3) * 4 + 4; omega

/-! ## The three arrays after the region -/

/-- The first output array: the target's sums of squares. -/
theorem finalTd (c : Dev nD) : (dats m 0 c).arrAt 2 cfg0.N = GSq (m ((c : Thread nD τ).loc main_arg1)) :=
  ((dats m 0 c).arrAt_eq_of_cover 2 (GSq (V m c main_arg1)) (fun t _ => flushed2_eq m c t) cover2).trans
    (congrArg GSq (V_main_arg1 m c))
/-- The second: the prediction's sums of squares. -/
theorem finalPd (c : Dev nD) : (dats m 0 c).arrAt 3 cfg0.N = GSq (m ((c : Thread nD τ).loc main_arg0)) :=
  ((dats m 0 c).arrAt_eq_of_cover 3 (GSq (V m c main_arg0)) (fun t _ => flushed3_eq m c t) cover3).trans
    (congrArg GSq (V_main_arg0 m c))
/-- The third: the cross sums. -/
theorem finalC (c : Dev nD) : (dats m 0 c).arrAt 4 cfg0.N
    = GC (m ((c : Thread nD τ).loc main_arg0)) (m ((c : Thread nD τ).loc main_arg1)) :=
  ((dats m 0 c).arrAt_eq_of_cover 4 (GC (V m c main_arg0) (V m c main_arg1)) (fun t _ => flushed4_eq m c t) cover4).trans
    (congrArg₂ GC (V_main_arg0 m c) (V_main_arg1 m c))

end Cert.KernelIdeal.Stats

end
-- ==== Proof.RefRun.lean ====
import proofs.«161573_j6640019439975_2_alg».proof.Proof.Gen.ReferenceIdeal
import Idealize.ShloMosaic.Lib.StableHlo.Run

/-! The reference program's @main as the list of its host operations, and its run read back: every weakly fair
    execution terminates with the result buffer at the operations' composed pure term of the two arguments'
    launch contents, the arguments unchanged. The composed term is stated through four named pieces: the two
    sums of squares over the last axis, the batched product contracted over the last axis, and the remainder of
    the computation as a function of those three. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 72 operations, in order. -/
abbrev ops : List (HloOp τ sig (Elt F)) :=
  [
    nullary main_c (fun i => lit0 (S24x4.rowMajor i)),
    binary main_arg1 main_arg1 main_v0 (mulf : (⟨S32x4x131072, .f32⟩ : BufTy).Contents (Elt F) → (⟨S32x4x131072, .f32⟩ : BufTy).Contents (Elt F) → (⟨S32x4x131072, .f32⟩ : BufTy).Contents (Elt F)),
    nullary main_cst (constant S_ .f32 0x00000000#32),
    binary main_v0 main_cst main_v1 ((fun x v => Host.reduceAdd x v reducesTo_S32x4x131072_S32x4_d2 h_S_) : (⟨S32x4x131072, .f32⟩ : BufTy).Contents (Elt F) → (⟨S_, .f32⟩ : BufTy).Contents (Elt F) → (⟨S32x4, .f32⟩ : BufTy).Contents (Elt F)),
    binary main_arg0 main_arg0 main_v2 (mulf : (⟨S32x4x131072, .f32⟩ : BufTy).Contents (Elt F) → (⟨S32x4x131072, .f32⟩ : BufTy).Contents (Elt F) → (⟨S32x4x131072, .f32⟩ : BufTy).Contents (Elt F)),
    nullary main_cst_0 (constant S_ .f32 0x00000000#32),
    binary main_v2 main_cst_0 main_v3 ((fun x v => Host.reduceAdd x v reducesTo_S32x4x131072_S32x4_d2 h_S_) : (⟨S32x4x131072, .f32⟩ : BufTy).Contents (Elt F) → (⟨S_, .f32⟩ : BufTy).Contents (Elt F) → (⟨S32x4, .f32⟩ : BufTy).Contents (Elt F)),
    binary main_arg0 main_arg1 main_v4 ((fun l r => Host.dotGeneral dot_S32x4x131072_S32x4x131072_S32x4x4_2_2_1_1_0_0 none l r) : (⟨S32x4x131072, .f32⟩ : BufTy).Contents (Elt F) → (⟨S32x4x131072, .f32⟩ : BufTy).Contents (Elt F) → (⟨S32x4x4, .f32⟩ : BufTy).Contents (Elt F)),
    nullary main_v5 (iotaInDim S4 32 0),
    nullary main_c_1 (constantI S_ 32 0#32),
    unary main_c_1 main_v6 (broadcastInDim S24x4 ![] bcast_S_S24x4 : (⟨S_, .i32⟩ : BufTy).Contents (Elt F) → (⟨S24x4, .i32⟩ : BufTy).Contents (Elt F)),
    binary main_c main_v6 main_v7 (cmpi .slt : (⟨S24x4, .i32⟩ : BufTy).Contents (Elt F) → (⟨S24x4, .i32⟩ : BufTy).Contents (Elt F) → (⟨S24x4, .i1⟩ : BufTy).Contents (Elt F)),
    nullary main_c_2 (constantI S_ 32 4#32),
    unary main_c_2 main_v8 (broadcastInDim S24x4 ![] bcast_S_S24x4 : (⟨S_, .i32⟩ : BufTy).Contents (Elt F) → (⟨S24x4, .i32⟩ : BufTy).Contents (Elt F)),
    binary main_c main_v8 main_v9 (addi : (⟨S24x4, .i32⟩ : BufTy).Contents (Elt F) → (⟨S24x4, .i32⟩ : BufTy).Contents (Elt F) → (⟨S24x4, .i32⟩ : BufTy).Contents (Elt F)),
    ternary main_v7 main_v9 main_c main_v10 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v10 main_v11 (broadcastInDim S24x4x1 ![0, 1] bcast_S24x4_S24x4x1_0_1 : (⟨S24x4, .i32⟩ : BufTy).Contents (Elt F) → (⟨S24x4x1, .i32⟩ : BufTy).Contents (Elt F)),
    binary main_v3 main_v11 main_v12 ((fun x i => Host.gather gather_S32x4_S24x4x1_S32x24x4_0_1_n_n_1_2_321 x i) : (⟨S32x4, .f32⟩ : BufTy).Contents (Elt F) → (⟨S24x4x1, .i32⟩ : BufTy).Contents (Elt F) → (⟨S32x24x4, .f32⟩ : BufTy).Contents (Elt F)),
    nullary main_c_3 (constantI S_ 32 0#32),
    unary main_c_3 main_v13 (broadcastInDim S24x4 ![] bcast_S_S24x4 : (⟨S_, .i32⟩ : BufTy).Contents (Elt F) → (⟨S24x4, .i32⟩ : BufTy).Contents (Elt F)),
    binary main_c main_v13 main_v14 (cmpi .slt : (⟨S24x4, .i32⟩ : BufTy).Contents (Elt F) → (⟨S24x4, .i32⟩ : BufTy).Contents (Elt F) → (⟨S24x4, .i1⟩ : BufTy).Contents (Elt F)),
    nullary main_c_4 (constantI S_ 32 4#32),
    unary main_c_4 main_v15 (broadcastInDim S24x4 ![] bcast_S_S24x4 : (⟨S_, .i32⟩ : BufTy).Contents (Elt F) → (⟨S24x4, .i32⟩ : BufTy).Contents (Elt F)),
    binary main_c main_v15 main_v16 (addi : (⟨S24x4, .i32⟩ : BufTy).Contents (Elt F) → (⟨S24x4, .i32⟩ : BufTy).Contents (Elt F) → (⟨S24x4, .i32⟩ : BufTy).Contents (Elt F)),
    ternary main_v14 main_v16 main_c main_v17 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    nullary main_c_5 (constantI S_ 32 0#32),
    unary main_c_5 main_v18 (broadcastInDim S4 ![] bcast_S_S4 : (⟨S_, .i32⟩ : BufTy).Contents (Elt F) → (⟨S4, .i32⟩ : BufTy).Contents (Elt F)),
    binary main_v5 main_v18 main_v19 (cmpi .slt : (⟨S4, .i32⟩ : BufTy).Contents (Elt F) → (⟨S4, .i32⟩ : BufTy).Contents (Elt F) → (⟨S4, .i1⟩ : BufTy).Contents (Elt F)),
    nullary main_c_6 (constantI S_ 32 4#32),
    unary main_c_6 main_v20 (broadcastInDim S4 ![] bcast_S_S4 : (⟨S_, .i32⟩ : BufTy).Contents (Elt F) → (⟨S4, .i32⟩ : BufTy).Contents (Elt F)),
    binary main_v5 main_v20 main_v21 (addi : (⟨S4, .i32⟩ : BufTy).Contents (Elt F) → (⟨S4, .i32⟩ : BufTy).Contents (Elt F) → (⟨S4, .i32⟩ : BufTy).Contents (Elt F)),
    ternary main_v19 main_v21 main_v5 main_v22 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v22 main_v23 (broadcastInDim S24x4 ![1] bcast_S4_S24x4_1 : (⟨S4, .i32⟩ : BufTy).Contents (Elt F) → (⟨S24x4, .i32⟩ : BufTy).Contents (Elt F)),
    unary main_v17 main_v24 (broadcastInDim S24x4x1 ![0, 1] bcast_S24x4_S24x4x1_0_1 : (⟨S24x4, .i32⟩ : BufTy).Contents (Elt F) → (⟨S24x4x1, .i32⟩ : BufTy).Contents (Elt F)),
    unary main_v23 main_v25 (broadcastInDim S24x4x1 ![0, 1] bcast_S24x4_S24x4x1_0_1 : (⟨S24x4, .i32⟩ : BufTy).Contents (Elt F) → (⟨S24x4x1, .i32⟩ : BufTy).Contents (Elt F)),
    binary main_v24 main_v25 main_v26 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    binary main_v4 main_v26 main_v27 ((fun x i => Host.gather gather_S32x4x4_S24x4x2_S32x24x4_0_12_n_n_12_2_3211 x i) : (⟨S32x4x4, .f32⟩ : BufTy).Contents (Elt F) → (⟨S24x4x2, .i32⟩ : BufTy).Contents (Elt F) → (⟨S32x24x4, .f32⟩ : BufTy).Contents (Elt F)),
    nullary main_cst_7 (constant S_ .f32 0x40000000#32),
    unary main_cst_7 main_v28 (broadcastInDim S32x24x4 ![] bcast_S_S32x24x4 : (⟨S_, .f32⟩ : BufTy).Contents (Elt F) → (⟨S32x24x4, .f32⟩ : BufTy).Contents (Elt F)),
    binary main_v28 main_v27 main_v29 (mulf : (⟨S32x24x4, .f32⟩ : BufTy).Contents (Elt F) → (⟨S32x24x4, .f32⟩ : BufTy).Contents (Elt F) → (⟨S32x24x4, .f32⟩ : BufTy).Contents (Elt F)),
    binary main_v12 main_v29 main_v30 (subf : (⟨S32x24x4, .f32⟩ : BufTy).Contents (Elt F) → (⟨S32x24x4, .f32⟩ : BufTy).Contents (Elt F) → (⟨S32x24x4, .f32⟩ : BufTy).Contents (Elt F)),
    unary main_v1 main_v31 (broadcastInDim S32x1x4 ![0, 2] bcast_S32x4_S32x1x4_0_2 : (⟨S32x4, .f32⟩ : BufTy).Contents (Elt F) → (⟨S32x1x4, .f32⟩ : BufTy).Contents (Elt F)),
    unary main_v31 main_v32 (broadcastInDim S32x24x4 ![0, 1, 2] bcast_S32x1x4_S32x24x4_0_1_2 : (⟨S32x1x4, .f32⟩ : BufTy).Contents (Elt F) → (⟨S32x24x4, .f32⟩ : BufTy).Contents (Elt F)),
    binary main_v30 main_v32 main_v33 (addf : (⟨S32x24x4, .f32⟩ : BufTy).Contents (Elt F) → (⟨S32x24x4, .f32⟩ : BufTy).Contents (Elt F) → (⟨S32x24x4, .f32⟩ : BufTy).Contents (Elt F)),
    unary main_v1 main_v34 (broadcastInDim S32x1x4 ![0, 2] bcast_S32x4_S32x1x4_0_2 : (⟨S32x4, .f32⟩ : BufTy).Contents (Elt F) → (⟨S32x1x4, .f32⟩ : BufTy).Contents (Elt F)),
    nullary main_cst_8 (constant S_ .f32 0x3089705F#32),
    unary main_cst_8 main_v35 (broadcastInDim S32x1x4 ![] bcast_S_S32x1x4 : (⟨S_, .f32⟩ : BufTy).Contents (Elt F) → (⟨S32x1x4, .f32⟩ : BufTy).Contents (Elt F)),
    binary main_v34 main_v35 main_v36 (addf : (⟨S32x1x4, .f32⟩ : BufTy).Contents (Elt F) → (⟨S32x1x4, .f32⟩ : BufTy).Contents (Elt F) → (⟨S32x1x4, .f32⟩ : BufTy).Contents (Elt F)),
    nullary main_cst_9 (constant S_ .f32 0x3089705F#32),
    unary main_cst_9 main_v37 (broadcastInDim S32x24x4 ![] bcast_S_S32x24x4 : (⟨S_, .f32⟩ : BufTy).Contents (Elt F) → (⟨S32x24x4, .f32⟩ : BufTy).Contents (Elt F)),
    binary main_v33 main_v37 main_v38 (addf : (⟨S32x24x4, .f32⟩ : BufTy).Contents (Elt F) → (⟨S32x24x4, .f32⟩ : BufTy).Contents (Elt F) → (⟨S32x24x4, .f32⟩ : BufTy).Contents (Elt F)),
    unary main_v36 main_v39 (broadcastInDim S32x24x4 ![0, 1, 2] bcast_S32x1x4_S32x24x4_0_1_2 : (⟨S32x1x4, .f32⟩ : BufTy).Contents (Elt F) → (⟨S32x24x4, .f32⟩ : BufTy).Contents (Elt F)),
    binary main_v39 main_v38 main_v40 (Host.divf : (⟨S32x24x4, .f32⟩ : BufTy).Contents (Elt F) → (⟨S32x24x4, .f32⟩ : BufTy).Contents (Elt F) → (⟨S32x24x4, .f32⟩ : BufTy).Contents (Elt F)),
    unary main_v40 main_v41 (Host.log : (⟨S32x24x4, .f32⟩ : BufTy).Contents (Elt F) → (⟨S32x24x4, .f32⟩ : BufTy).Contents (Elt F)),
    nullary main_cst_10 (constant S_ .f32 0x3EDE5BD9#32),
    unary main_cst_10 main_v42 (broadcastInDim S32x24x4 ![] bcast_S_S32x24x4 : (⟨S_, .f32⟩ : BufTy).Contents (Elt F) → (⟨S32x24x4, .f32⟩ : BufTy).Contents (Elt F)),
    binary main_v41 main_v42 main_v43 (mulf : (⟨S32x24x4, .f32⟩ : BufTy).Contents (Elt F) → (⟨S32x24x4, .f32⟩ : BufTy).Contents (Elt F) → (⟨S32x24x4, .f32⟩ : BufTy).Contents (Elt F)),
    nullary main_cst_11 (constant S_ .f32 0x41200000#32),
    unary main_cst_11 main_v44 (broadcastInDim S32x24x4 ![] bcast_S_S32x24x4 : (⟨S_, .f32⟩ : BufTy).Contents (Elt F) → (⟨S32x24x4, .f32⟩ : BufTy).Contents (Elt F)),
    binary main_v44 main_v43 main_v45 (mulf : (⟨S32x24x4, .f32⟩ : BufTy).Contents (Elt F) → (⟨S32x24x4, .f32⟩ : BufTy).Contents (Elt F) → (⟨S32x24x4, .f32⟩ : BufTy).Contents (Elt F)),
    nullary main_cst_12 (constant S_ .f32 0x00000000#32),
    binary main_v45 main_cst_12 main_v46 ((fun x v => Host.reduceAdd x v reducesTo_S32x24x4_S32x24_d2 h_S_) : (⟨S32x24x4, .f32⟩ : BufTy).Contents (Elt F) → (⟨S_, .f32⟩ : BufTy).Contents (Elt F) → (⟨S32x24, .f32⟩ : BufTy).Contents (Elt F)),
    nullary main_cst_13 (constant S_ .f32 0x40800000#32),
    unary main_cst_13 main_v47 (broadcastInDim S32x24 ![] bcast_S_S32x24 : (⟨S_, .f32⟩ : BufTy).Contents (Elt F) → (⟨S32x24, .f32⟩ : BufTy).Contents (Elt F)),
    binary main_v46 main_v47 main_v48 (Host.divf : (⟨S32x24, .f32⟩ : BufTy).Contents (Elt F) → (⟨S32x24, .f32⟩ : BufTy).Contents (Elt F) → (⟨S32x24, .f32⟩ : BufTy).Contents (Elt F)),
    nullary main_cst_14 (constant S_ .f32 0xFF800000#32),
    binary main_v48 main_cst_14 main_v49 ((fun x v => Host.reduce FloatOps.maximumf x v reducesTo_S32x24_S32_d1 h_S_) : (⟨S32x24, .f32⟩ : BufTy).Contents (Elt F) → (⟨S_, .f32⟩ : BufTy).Contents (Elt F) → (⟨S32, .f32⟩ : BufTy).Contents (Elt F)),
    nullary main_cst_15 (constant S_ .f32 0x00000000#32),
    binary main_v49 main_cst_15 main_v50 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_16 (constant S_ .f32 0x42000000#32),
    binary main_v50 main_cst_16 main_v51 (Host.divf : (⟨S_, .f32⟩ : BufTy).Contents (Elt F) → (⟨S_, .f32⟩ : BufTy).Contents (Elt F) → (⟨S_, .f32⟩ : BufTy).Contents (Elt F)),
    unary main_v51 main_v52 (Host.negf : (⟨S_, .f32⟩ : BufTy).Contents (Elt F) → (⟨S_, .f32⟩ : BufTy).Contents (Elt F)) ]

set_option maxRecDepth 4096 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., unary_bufs_sub ..⟩

/-- The sum over the last axis of the squares of the second argument, from the zero word. -/
def TdR (a1 : FVec F S32x4x131072 .f32) : FVec F S32x4 .f32 :=
  Host.reduceAdd (mulf a1 a1) (constant S_ .f32 0x00000000#32) reducesTo_S32x4x131072_S32x4_d2 h_S_

/-- The sum over the last axis of the squares of the first argument, from the zero word. -/
def PdR (a0 : FVec F S32x4x131072 .f32) : FVec F S32x4 .f32 :=
  Host.reduceAdd (mulf a0 a0) (constant S_ .f32 0x00000000#32) reducesTo_S32x4x131072_S32x4_d2 h_S_

/-- The product of the two arguments batched over the first axis and contracted over the last. -/
def CR (a0 a1 : FVec F S32x4x131072 .f32) : FVec F S32x4x4 .f32 :=
  Host.dotGeneral dot_S32x4x131072_S32x4x131072_S32x4x4_2_2_1_1_0_0 none a0 a1

/-- The rest of the computation as a function of the two sums of squares `Td`, `Pd` and the batched product `C`:
    the table of the 24 orderings of four indices, the gathers of `Pd` and `C` along it, the ratio, its logarithm
    scaled, the mean over the last axis, the maximum over the orderings, the mean over the batch, negated. -/
def tail (Td Pd : FVec F S32x4 .f32) (C : FVec F S32x4x4 .f32) : FVec F S_ .f32 :=
  let c : (⟨S24x4, .i32⟩ : BufTy).Contents (Elt F) := (fun i => lit0 (S24x4.rowMajor i))
  let v5 : (⟨S4, .i32⟩ : BufTy).Contents (Elt F) := (iotaInDim S4 32 0)
  let c_1 : (⟨S_, .i32⟩ : BufTy).Contents (Elt F) := (constantI S_ 32 0#32)
  let v6 : (⟨S24x4, .i32⟩ : BufTy).Contents (Elt F) := (broadcastInDim S24x4 ![] bcast_S_S24x4 : (⟨S_, .i32⟩ : BufTy).Contents (Elt F) → (⟨S24x4, .i32⟩ : BufTy).Contents (Elt F)) c_1
  let v7 : (⟨S24x4, .i1⟩ : BufTy).Contents (Elt F) := (cmpi .slt : (⟨S24x4, .i32⟩ : BufTy).Contents (Elt F) → (⟨S24x4, .i32⟩ : BufTy).Contents (Elt F) → (⟨S24x4, .i1⟩ : BufTy).Contents (Elt F)) c v6
  let c_2 : (⟨S_, .i32⟩ : BufTy).Contents (Elt F) := (constantI S_ 32 4#32)
  let v8 : (⟨S24x4, .i32⟩ : BufTy).Contents (Elt F) := (broadcastInDim S24x4 ![] bcast_S_S24x4 : (⟨S_, .i32⟩ : BufTy).Contents (Elt F) → (⟨S24x4, .i32⟩ : BufTy).Contents (Elt F)) c_2
  let v9 : (⟨S24x4, .i32⟩ : BufTy).Contents (Elt F) := (addi : (⟨S24x4, .i32⟩ : BufTy).Contents (Elt F) → (⟨S24x4, .i32⟩ : BufTy).Contents (Elt F) → (⟨S24x4, .i32⟩ : BufTy).Contents (Elt F)) c v8
  let v10 : (⟨S24x4, .i32⟩ : BufTy).Contents (Elt F) := (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)) v7 v9 c
  let v11 : (⟨S24x4x1, .i32⟩ : BufTy).Contents (Elt F) := (broadcastInDim S24x4x1 ![0, 1] bcast_S24x4_S24x4x1_0_1 : (⟨S24x4, .i32⟩ : BufTy).Contents (Elt F) → (⟨S24x4x1, .i32⟩ : BufTy).Contents (Elt F)) v10
  let v12 : (⟨S32x24x4, .f32⟩ : BufTy).Contents (Elt F) := ((fun x i => Host.gather gather_S32x4_S24x4x1_S32x24x4_0_1_n_n_1_2_321 x i) : (⟨S32x4, .f32⟩ : BufTy).Contents (Elt F) → (⟨S24x4x1, .i32⟩ : BufTy).Contents (Elt F) → (⟨S32x24x4, .f32⟩ : BufTy).Contents (Elt F)) Pd v11
  let c_3 : (⟨S_, .i32⟩ : BufTy).Contents (Elt F) := (constantI S_ 32 0#32)
  let v13 : (⟨S24x4, .i32⟩ : BufTy).Contents (Elt F) := (broadcastInDim S24x4 ![] bcast_S_S24x4 : (⟨S_, .i32⟩ : BufTy).Contents (Elt F) → (⟨S24x4, .i32⟩ : BufTy).Contents (Elt F)) c_3
  let v14 : (⟨S24x4, .i1⟩ : BufTy).Contents (Elt F) := (cmpi .slt : (⟨S24x4, .i32⟩ : BufTy).Contents (Elt F) → (⟨S24x4, .i32⟩ : BufTy).Contents (Elt F) → (⟨S24x4, .i1⟩ : BufTy).Contents (Elt F)) c v13
  let c_4 : (⟨S_, .i32⟩ : BufTy).Contents (Elt F) := (constantI S_ 32 4#32)
  let v15 : (⟨S24x4, .i32⟩ : BufTy).Contents (Elt F) := (broadcastInDim S24x4 ![] bcast_S_S24x4 : (⟨S_, .i32⟩ : BufTy).Contents (Elt F) → (⟨S24x4, .i32⟩ : BufTy).Contents (Elt F)) c_4
  let v16 : (⟨S24x4, .i32⟩ : BufTy).Contents (Elt F) := (addi : (⟨S24x4, .i32⟩ : BufTy).Contents (Elt F) → (⟨S24x4, .i32⟩ : BufTy).Contents (Elt F) → (⟨S24x4, .i32⟩ : BufTy).Contents (Elt F)) c v15
  let v17 : (⟨S24x4, .i32⟩ : BufTy).Contents (Elt F) := (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)) v14 v16 c
  let c_5 : (⟨S_, .i32⟩ : BufTy).Contents (Elt F) := (constantI S_ 32 0#32)
  let v18 : (⟨S4, .i32⟩ : BufTy).Contents (Elt F) := (broadcastInDim S4 ![] bcast_S_S4 : (⟨S_, .i32⟩ : BufTy).Contents (Elt F) → (⟨S4, .i32⟩ : BufTy).Contents (Elt F)) c_5
  let v19 : (⟨S4, .i1⟩ : BufTy).Contents (Elt F) := (cmpi .slt : (⟨S4, .i32⟩ : BufTy).Contents (Elt F) → (⟨S4, .i32⟩ : BufTy).Contents (Elt F) → (⟨S4, .i1⟩ : BufTy).Contents (Elt F)) v5 v18
  let c_6 : (⟨S_, .i32⟩ : BufTy).Contents (Elt F) := (constantI S_ 32 4#32)
  let v20 : (⟨S4, .i32⟩ : BufTy).Contents (Elt F) := (broadcastInDim S4 ![] bcast_S_S4 : (⟨S_, .i32⟩ : BufTy).Contents (Elt F) → (⟨S4, .i32⟩ : BufTy).Contents (Elt F)) c_6
  let v21 : (⟨S4, .i32⟩ : BufTy).Contents (Elt F) := (addi : (⟨S4, .i32⟩ : BufTy).Contents (Elt F) → (⟨S4, .i32⟩ : BufTy).Contents (Elt F) → (⟨S4, .i32⟩ : BufTy).Contents (Elt F)) v5 v20
  let v22 : (⟨S4, .i32⟩ : BufTy).Contents (Elt F) := (select : (⟨S4, .i1⟩ : BufTy).Contents (Elt F) → (⟨S4, .i32⟩ : BufTy).Contents (Elt F) → (⟨S4, .i32⟩ : BufTy).Contents (Elt F) → (⟨S4, .i32⟩ : BufTy).Contents (Elt F)) v19 v21 v5
  let v23 : (⟨S24x4, .i32⟩ : BufTy).Contents (Elt F) := (broadcastInDim S24x4 ![1] bcast_S4_S24x4_1 : (⟨S4, .i32⟩ : BufTy).Contents (Elt F) → (⟨S24x4, .i32⟩ : BufTy).Contents (Elt F)) v22
  let v24 : (⟨S24x4x1, .i32⟩ : BufTy).Contents (Elt F) := (broadcastInDim S24x4x1 ![0, 1] bcast_S24x4_S24x4x1_0_1 : (⟨S24x4, .i32⟩ : BufTy).Contents (Elt F) → (⟨S24x4x1, .i32⟩ : BufTy).Contents (Elt F)) v17
  let v25 : (⟨S24x4x1, .i32⟩ : BufTy).Contents (Elt F) := (broadcastInDim S24x4x1 ![0, 1] bcast_S24x4_S24x4x1_0_1 : (⟨S24x4, .i32⟩ : BufTy).Contents (Elt F) → (⟨S24x4x1, .i32⟩ : BufTy).Contents (Elt F)) v23
  let v26 : (⟨S24x4x2, .i32⟩ : BufTy).Contents (Elt F) := ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)) v24 v25
  let v27 : (⟨S32x24x4, .f32⟩ : BufTy).Contents (Elt F) := ((fun x i => Host.gather gather_S32x4x4_S24x4x2_S32x24x4_0_12_n_n_12_2_3211 x i) : (⟨S32x4x4, .f32⟩ : BufTy).Contents (Elt F) → (⟨S24x4x2, .i32⟩ : BufTy).Contents (Elt F) → (⟨S32x24x4, .f32⟩ : BufTy).Contents (Elt F)) C v26
  let cst_7 : (⟨S_, .f32⟩ : BufTy).Contents (Elt F) := (constant S_ .f32 0x40000000#32)
  let v28 : (⟨S32x24x4, .f32⟩ : BufTy).Contents (Elt F) := (broadcastInDim S32x24x4 ![] bcast_S_S32x24x4 : (⟨S_, .f32⟩ : BufTy).Contents (Elt F) → (⟨S32x24x4, .f32⟩ : BufTy).Contents (Elt F)) cst_7
  let v29 : (⟨S32x24x4, .f32⟩ : BufTy).Contents (Elt F) := (mulf : (⟨S32x24x4, .f32⟩ : BufTy).Contents (Elt F) → (⟨S32x24x4, .f32⟩ : BufTy).Contents (Elt F) → (⟨S32x24x4, .f32⟩ : BufTy).Contents (Elt F)) v28 v27
  let v30 : (⟨S32x24x4, .f32⟩ : BufTy).Contents (Elt F) := (subf : (⟨S32x24x4, .f32⟩ : BufTy).Contents (Elt F) → (⟨S32x24x4, .f32⟩ : BufTy).Contents (Elt F) → (⟨S32x24x4, .f32⟩ : BufTy).Contents (Elt F)) v12 v29
  let v31 : (⟨S32x1x4, .f32⟩ : BufTy).Contents (Elt F) := (broadcastInDim S32x1x4 ![0, 2] bcast_S32x4_S32x1x4_0_2 : (⟨S32x4, .f32⟩ : BufTy).Contents (Elt F) → (⟨S32x1x4, .f32⟩ : BufTy).Contents (Elt F)) Td
  let v32 : (⟨S32x24x4, .f32⟩ : BufTy).Contents (Elt F) := (broadcastInDim S32x24x4 ![0, 1, 2] bcast_S32x1x4_S32x24x4_0_1_2 : (⟨S32x1x4, .f32⟩ : BufTy).Contents (Elt F) → (⟨S32x24x4, .f32⟩ : BufTy).Contents (Elt F)) v31
  let v33 : (⟨S32x24x4, .f32⟩ : BufTy).Contents (Elt F) := (addf : (⟨S32x24x4, .f32⟩ : BufTy).Contents (Elt F) → (⟨S32x24x4, .f32⟩ : BufTy).Contents (Elt F) → (⟨S32x24x4, .f32⟩ : BufTy).Contents (Elt F)) v30 v32
  let v34 : (⟨S32x1x4, .f32⟩ : BufTy).Contents (Elt F) := (broadcastInDim S32x1x4 ![0, 2] bcast_S32x4_S32x1x4_0_2 : (⟨S32x4, .f32⟩ : BufTy).Contents (Elt F) → (⟨S32x1x4, .f32⟩ : BufTy).Contents (Elt F)) Td
  let cst_8 : (⟨S_, .f32⟩ : BufTy).Contents (Elt F) := (constant S_ .f32 0x3089705F#32)
  let v35 : (⟨S32x1x4, .f32⟩ : BufTy).Contents (Elt F) := (broadcastInDim S32x1x4 ![] bcast_S_S32x1x4 : (⟨S_, .f32⟩ : BufTy).Contents (Elt F) → (⟨S32x1x4, .f32⟩ : BufTy).Contents (Elt F)) cst_8
  let v36 : (⟨S32x1x4, .f32⟩ : BufTy).Contents (Elt F) := (addf : (⟨S32x1x4, .f32⟩ : BufTy).Contents (Elt F) → (⟨S32x1x4, .f32⟩ : BufTy).Contents (Elt F) → (⟨S32x1x4, .f32⟩ : BufTy).Contents (Elt F)) v34 v35
  let cst_9 : (⟨S_, .f32⟩ : BufTy).Contents (Elt F) := (constant S_ .f32 0x3089705F#32)
  let v37 : (⟨S32x24x4, .f32⟩ : BufTy).Contents (Elt F) := (broadcastInDim S32x24x4 ![] bcast_S_S32x24x4 : (⟨S_, .f32⟩ : BufTy).Contents (Elt F) → (⟨S32x24x4, .f32⟩ : BufTy).Contents (Elt F)) cst_9
  let v38 : (⟨S32x24x4, .f32⟩ : BufTy).Contents (Elt F) := (addf : (⟨S32x24x4, .f32⟩ : BufTy).Contents (Elt F) → (⟨S32x24x4, .f32⟩ : BufTy).Contents (Elt F) → (⟨S32x24x4, .f32⟩ : BufTy).Contents (Elt F)) v33 v37
  let v39 : (⟨S32x24x4, .f32⟩ : BufTy).Contents (Elt F) := (broadcastInDim S32x24x4 ![0, 1, 2] bcast_S32x1x4_S32x24x4_0_1_2 : (⟨S32x1x4, .f32⟩ : BufTy).Contents (Elt F) → (⟨S32x24x4, .f32⟩ : BufTy).Contents (Elt F)) v36
  let v40 : (⟨S32x24x4, .f32⟩ : BufTy).Contents (Elt F) := (Host.divf : (⟨S32x24x4, .f32⟩ : BufTy).Contents (Elt F) → (⟨S32x24x4, .f32⟩ : BufTy).Contents (Elt F) → (⟨S32x24x4, .f32⟩ : BufTy).Contents (Elt F)) v39 v38
  let v41 : (⟨S32x24x4, .f32⟩ : BufTy).Contents (Elt F) := (Host.log : (⟨S32x24x4, .f32⟩ : BufTy).Contents (Elt F) → (⟨S32x24x4, .f32⟩ : BufTy).Contents (Elt F)) v40
  let cst_10 : (⟨S_, .f32⟩ : BufTy).Contents (Elt F) := (constant S_ .f32 0x3EDE5BD9#32)
  let v42 : (⟨S32x24x4, .f32⟩ : BufTy).Contents (Elt F) := (broadcastInDim S32x24x4 ![] bcast_S_S32x24x4 : (⟨S_, .f32⟩ : BufTy).Contents (Elt F) → (⟨S32x24x4, .f32⟩ : BufTy).Contents (Elt F)) cst_10
  let v43 : (⟨S32x24x4, .f32⟩ : BufTy).Contents (Elt F) := (mulf : (⟨S32x24x4, .f32⟩ : BufTy).Contents (Elt F) → (⟨S32x24x4, .f32⟩ : BufTy).Contents (Elt F) → (⟨S32x24x4, .f32⟩ : BufTy).Contents (Elt F)) v41 v42
  let cst_11 : (⟨S_, .f32⟩ : BufTy).Contents (Elt F) := (constant S_ .f32 0x41200000#32)
  let v44 : (⟨S32x24x4, .f32⟩ : BufTy).Contents (Elt F) := (broadcastInDim S32x24x4 ![] bcast_S_S32x24x4 : (⟨S_, .f32⟩ : BufTy).Contents (Elt F) → (⟨S32x24x4, .f32⟩ : BufTy).Contents (Elt F)) cst_11
  let v45 : (⟨S32x24x4, .f32⟩ : BufTy).Contents (Elt F) := (mulf : (⟨S32x24x4, .f32⟩ : BufTy).Contents (Elt F) → (⟨S32x24x4, .f32⟩ : BufTy).Contents (Elt F) → (⟨S32x24x4, .f32⟩ : BufTy).Contents (Elt F)) v44 v43
  let cst_12 : (⟨S_, .f32⟩ : BufTy).Contents (Elt F) := (constant S_ .f32 0x00000000#32)
  let v46 : (⟨S32x24, .f32⟩ : BufTy).Contents (Elt F) := ((fun x v => Host.reduceAdd x v reducesTo_S32x24x4_S32x24_d2 h_S_) : (⟨S32x24x4, .f32⟩ : BufTy).Contents (Elt F) → (⟨S_, .f32⟩ : BufTy).Contents (Elt F) → (⟨S32x24, .f32⟩ : BufTy).Contents (Elt F)) v45 cst_12
  let cst_13 : (⟨S_, .f32⟩ : BufTy).Contents (Elt F) := (constant S_ .f32 0x40800000#32)
  let v47 : (⟨S32x24, .f32⟩ : BufTy).Contents (Elt F) := (broadcastInDim S32x24 ![] bcast_S_S32x24 : (⟨S_, .f32⟩ : BufTy).Contents (Elt F) → (⟨S32x24, .f32⟩ : BufTy).Contents (Elt F)) cst_13
  let v48 : (⟨S32x24, .f32⟩ : BufTy).Contents (Elt F) := (Host.divf : (⟨S32x24, .f32⟩ : BufTy).Contents (Elt F) → (⟨S32x24, .f32⟩ : BufTy).Contents (Elt F) → (⟨S32x24, .f32⟩ : BufTy).Contents (Elt F)) v46 v47
  let cst_14 : (⟨S_, .f32⟩ : BufTy).Contents (Elt F) := (constant S_ .f32 0xFF800000#32)
  let v49 : (⟨S32, .f32⟩ : BufTy).Contents (Elt F) := ((fun x v => Host.reduce FloatOps.maximumf x v reducesTo_S32x24_S32_d1 h_S_) : (⟨S32x24, .f32⟩ : BufTy).Contents (Elt F) → (⟨S_, .f32⟩ : BufTy).Contents (Elt F) → (⟨S32, .f32⟩ : BufTy).Contents (Elt F)) v48 cst_14
  let cst_15 : (⟨S_, .f32⟩ : BufTy).Contents (Elt F) := (constant S_ .f32 0x00000000#32)
  let v50 : (⟨S_, .f32⟩ : BufTy).Contents (Elt F) := ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) v49 cst_15
  let cst_16 : (⟨S_, .f32⟩ : BufTy).Contents (Elt F) := (constant S_ .f32 0x42000000#32)
  let v51 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) v50 cst_16
  let v52 : (⟨S_, .f32⟩ : BufTy).Contents (Elt F) := (Host.negf : (⟨S_, .f32⟩ : BufTy).Contents (Elt F) → (⟨S_, .f32⟩ : BufTy).Contents (Elt F)) v51
  v52

set_option maxHeartbeats 28800000 in
/-- On every device, for any float values, from any memory with zero counters: every weakly fair execution of
    @main terminates with the result at the composed term of the two arguments — the remainder `tail` applied to
    the two sums of squares and the batched product — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = tail (TdR (m ((c.tc : Thread nD τ).loc main_arg1))) (PdR (m ((c.tc : Thread nD τ).loc main_arg0))) (CR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.IdealTail.lean ====
/-
  The 66 lines after the region compute the loss from the three statistics arrays exactly as the reference's last lines
  do from its own three: the two [32,1,4] arrays recast to [32,4], the permutation gathers, the error energies, the
  log ratio, the mean over sources, the maximum over the 24 permutations, the negated mean over the batch. Read over
  ANY contents of the core's buffers whose table buffer holds the 24 x 4 permutation table, the result buffer after
  those lines is the reference's tail function of the recast first two arrays and the third.
-/
import proofs.«161573_j6640019439975_2_alg».proof.Proof.IdealFrame
import proofs.«161573_j6640019439975_2_alg».proof.Proof.RefRun
import Idealize.ShloMosaic.Lib.StableHlo.Run
import Idealize.ShloMosaic.PureOps.Ideal

set_option maxRecDepth 16384

noncomputable section

namespace Cert.KernelIdeal.Stats

open Cert.KernelIdeal Cert.KernelIdeal.Gen
open Idealize.ShloMosaic Idealize.ShloMosaic.TcCoe Idealize.SL.Sem Idealize.ShloMosaic.StableHlo

/-- The two programs print the same 96 table words. -/
theorem lit0_eq : Cert.KernelIdeal.lit0 = Cert.ReferenceIdeal.lit0 := funext fun i => by fin_cases i <;> rfl

set_option maxHeartbeats 28800000 in
/-- The later lines, from contents `W` with the table in its buffer. -/
theorem tail_eq (W : Valuation τ sig (Elt Ideal))
    (hc : W (Proc.devRef .tc main_c) = fun i => Cert.ReferenceIdeal.lit0 (S24x4.rowMajor i)) :
    StableHlo.after (hostOps1 (F := Ideal)) W (Proc.devRef .tc main_v50)
      = Cert.ReferenceIdeal.RefRun.tail (F := Ideal)
          (shapeCast S32x4 (W (Proc.devRef .tc main_v0_0)) shapeCasts_S32x1x4_S32x4)
          (shapeCast S32x4 (W (Proc.devRef .tc main_v0_1)) shapeCasts_S32x1x4_S32x4)
          (W (Proc.devRef .tc main_v0_2)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rw [hc]
  rfl

end Cert.KernelIdeal.Stats

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefRead.lean ====
import proofs.«161573_j6640019439975_2_alg».proof.Proof.RefRun
import proofs.«161573_j6640019439975_2_alg».proof.Proof.LibHostRead
import Idealize.ShloMosaic.Lib.ValueIdx
import Idealize.ShloMosaic.PureOps.Ideal.Laws

/-! The three named pieces of the reference's composed term, read at an index on the extended reals: each sum of
    squares at `(b, j)` is the sum over the last axis of the squares of the argument at `(b, j, ·)`, and the batched
    product at `(b, i, j)` is the sum over the last axis of the first argument at `(b, i, ·)` times the second at
    `(b, j, ·)`. The sums are the extended reals' own; nothing is assumed finite. -/

noncomputable section

namespace Cert.ReferenceIdeal.RefRead

open Cert.ReferenceIdeal Cert.ReferenceIdeal.Gen Cert.ReferenceIdeal.RefRun Idealize.ShloMosaic Idealize.ShloMosaic.ValueIdx

/-- The second argument's sum of squares at `(b, j)`: the zero word plus the sum over the last axis is that sum. -/
theorem TdR_apply (a1 : FVec Ideal S32x4x131072 .f32) (b : Fin 32) (j : Fin 4) :
    TdR (F := Ideal) a1 (ValueIdx.ix2 b j) = ∑ k : Fin 131072, a1 (ValueIdx.ix3 b j k) * a1 (ValueIdx.ix3 b j k) := by
  unfold TdR
  exact (Hmu.Lib.hostReduceAdd_abc_axis2_apply (mulf a1 a1) reducesTo_S32x4x131072_S32x4_d2 h_S_ b j).trans
    (Finset.sum_congr rfl fun k _ => mulf_apply a1 a1 (ValueIdx.ix3 b j k))

/-- The first argument's sum of squares at `(b, j)`. -/
theorem PdR_apply (a0 : FVec Ideal S32x4x131072 .f32) (b : Fin 32) (j : Fin 4) :
    PdR (F := Ideal) a0 (ValueIdx.ix2 b j) = ∑ k : Fin 131072, a0 (ValueIdx.ix3 b j k) * a0 (ValueIdx.ix3 b j k) := by
  unfold PdR
  exact (Hmu.Lib.hostReduceAdd_abc_axis2_apply (mulf a0 a0) reducesTo_S32x4x131072_S32x4_d2 h_S_ b j).trans
    (Finset.sum_congr rfl fun k _ => mulf_apply a0 a0 (ValueIdx.ix3 b j k))

/-- The contraction of the batched product runs over one axis, of extent 131072. -/
theorem contr_rank : dot_S32x4x131072_S32x4x131072_S32x4x4_2_2_1_1_0_0.contr.rank = 1 := rfl

theorem contr_size : dot_S32x4x131072_S32x4x131072_S32x4x4_2_2_1_1_0_0.contr.size ⟨0, by rw [contr_rank]; omega⟩ = 131072 := rfl

/-- The left operand of the batched product at result index `(b, i, j)` and contraction coordinate `k` is read at
    `(b, i, k)`: the batch axis and the row come from the result index, the last axis from the contraction. -/
theorem lhsIdx_eq (b : Fin 32) (i j : Fin 4) (k : Fin 131072) :
    dot_S32x4x131072_S32x4x131072_S32x4x4_2_2_1_1_0_0.lhsIdx (ValueIdx.ix3 b i j)
      ((contrEquiv1 dot_S32x4x131072_S32x4x131072_S32x4x4_2_2_1_1_0_0 131072 contr_rank contr_size).symm k) = ValueIdx.ix3 b i k := by
  funext d
  apply Fin.ext
  match d with
  | ⟨0, _⟩ => rfl
  | ⟨1, _⟩ => rfl
  | ⟨2, _⟩ => rfl

/-- The right operand there is read at `(b, j, k)`: the batch axis is shared, the row is the result's last coordinate. -/
theorem rhsIdx_eq (b : Fin 32) (i j : Fin 4) (k : Fin 131072) :
    dot_S32x4x131072_S32x4x131072_S32x4x4_2_2_1_1_0_0.rhsIdx (ValueIdx.ix3 b i j)
      ((contrEquiv1 dot_S32x4x131072_S32x4x131072_S32x4x4_2_2_1_1_0_0 131072 contr_rank contr_size).symm k) = ValueIdx.ix3 b j k := by
  funext d
  apply Fin.ext
  match d with
  | ⟨0, _⟩ => rfl
  | ⟨1, _⟩ => rfl
  | ⟨2, _⟩ => rfl

/-- The batched product at `(b, i, j)`: the sum over the last axis of the products of the two rows. -/
theorem CR_apply (a0 a1 : FVec Ideal S32x4x131072 .f32) (b : Fin 32) (i j : Fin 4) :
    CR (F := Ideal) a0 a1 (ValueIdx.ix3 b i j) = ∑ k : Fin 131072, a0 (ValueIdx.ix3 b i k) * a1 (ValueIdx.ix3 b j k) := by
  unfold CR
  refine (Ideal.dotGeneral_apply dot_S32x4x131072_S32x4x131072_S32x4x4_2_2_1_1_0_0 none .single a0 a1 (ValueIdx.ix3 b i j)).trans ?_
  rw [← Equiv.sum_comp (contrEquiv1 dot_S32x4x131072_S32x4x131072_S32x4x4_2_2_1_1_0_0 131072 contr_rank contr_size).symm]
  exact Finset.sum_congr rfl fun k _ => by rw [lhsIdx_eq, rhsIdx_eq]

end Cert.ReferenceIdeal.RefRead

end
-- ==== Proof.IdealValue.lean ====
/-
  The kernel program's result. After the region the first two statistics arrays, recast from [32,1,4] to [32,4], are the
  reference's sums of squares of the target and of the prediction, and the third is the reference's batched product of
  the prediction with the target contracted over time: entry by entry each is the same sum over the 131072 samples.
  The later lines are the reference's tail function (the table buffer still holds the permutation table the program's
  first line wrote), so the result buffer ends at the reference's tail of the reference's three statistics of the
  launch arrays.
-/
import proofs.«161573_j6640019439975_2_alg».proof.Proof.IdealArrays
import proofs.«161573_j6640019439975_2_alg».proof.Proof.IdealTail
import proofs.«161573_j6640019439975_2_alg».proof.Proof.RefRead

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.ReferenceIdeal.RefRun (TdR PdR CR tail)

variable (m : (ℓ : Loc nD τ sig) → Buf (Elt Ideal) ℓ) (ρ : Dev nD → PrngReg)

/-! ## The statistics arrays are the reference's -/

/-- A [32,1,4] array of sums of squares, recast to [32,4], is any [32,4] array with those sums as entries. -/
theorem recast_GSq (a : FVec Ideal S32x4x131072 .f32) (R : FVec Ideal S32x4 .f32)
    (hR : ∀ (b : Fin 32) (j : Fin 4), R (ix2 b j) = ∑ k : Fin 131072, a (ix3 b j k) * a (ix3 b j k)) :
    shapeCast S32x4 (GSq a) shapeCasts_S32x1x4_S32x4 = R := by
  funext i
  obtain ⟨b, j, rfl⟩ : ∃ (b : Fin 32) (j : Fin 4), i = ix2 b j := ⟨i 0, i 1, eq_ix2 i⟩
  rw [hR]
  refine (shapeCast_apply (GSq a) shapeCasts_S32x1x4_S32x4 (ix2 b j) (ix3 b (0 : Fin 1) j) ?_).trans ?_
  · rw [Shape.rowMajor_val_three, Shape.rowMajor_val_two]
    show (b.val * 1 + 0) * 4 + j.val = b.val * 4 + j.val
    omega
  · unfold GSq sumSq
    exact Finset.sum_congr rfl fun k _ => rfl

/-- The cross sums are the batched product contracted over time. -/
theorem GC_eq (a0 a1 : FVec Ideal S32x4x131072 .f32) (R : FVec Ideal S32x4x4 .f32)
    (hR : ∀ (b : Fin 32) (i j : Fin 4), R (ix3 b i j) = ∑ k : Fin 131072, a0 (ix3 b i k) * a1 (ix3 b j k)) :
    GC a0 a1 = R := by
  funext z
  obtain ⟨b, i, j, rfl⟩ : ∃ (b : Fin 32) (i j : Fin 4), z = ix3 b i j := ⟨z 0, z 1, z 2, eq_ix3 z⟩
  rw [hR]
  unfold GC crossSum
  exact Finset.sum_congr rfl fun k _ => rfl

/-! ## The table buffer at the region's entry -/

theorem table_eq (c : Dev nD) :
    V0 m c (Proc.devRef .tc main_c) = fun i => Cert.ReferenceIdeal.lit0 (S24x4.rowMajor i) := by
  show StableHlo.after hostOps0 (fun b => m (c, b)) (Proc.devRef .tc main_c) = _
  after_results
  all_goals (first | rfl | rw [lit0_eq])

/-! ## The result -/

/-- The result buffer after the later lines: the reference's tail of the reference's statistics. -/
theorem result_eq (c : Dev nD) :
    Pipeline.afterTail₀ cfgs (dats m) 0 (V0 m) [hostOps1] c main_v50
      = tail (F := Ideal) (TdR (m ((c : Thread nD τ).loc main_arg1))) (PdR (m ((c : Thread nD τ).loc main_arg0)))
          (CR (m ((c : Thread nD τ).loc main_arg0)) (m ((c : Thread nD τ).loc main_arg1))) := by
  unfold Pipeline.afterTail₀
  show StableHlo.after hostOps1 _ (Proc.devRef .tc main_v50) = _
  have hc : Pipeline.withArrays spec0 c (V0 m c) (fun w => (dats m 0 c).arrAt w cfg0.N) (Proc.devRef .tc main_c)
      = fun i => Cert.ReferenceIdeal.lit0 (S24x4.rowMajor i) :=
    (Pipeline.withArrays_of_ne spec0 c (V0 m c) _ main_c (by decide : ∀ w, Pipeline.arrRef spec0 w ≠ main_c)).trans (table_eq m c)
  have h2 : Pipeline.withArrays spec0 c (V0 m c) (fun w => (dats m 0 c).arrAt w cfg0.N) (Proc.devRef .tc main_v0_0)
      = GSq (m ((c : Thread nD τ).loc main_arg1)) :=
    (Pipeline.withArrays_arr spec0 launch0.win.arr_inj c (V0 m c) _ 2).trans (finalTd m c)
  have h3 : Pipeline.withArrays spec0 c (V0 m c) (fun w => (dats m 0 c).arrAt w cfg0.N) (Proc.devRef .tc main_v0_1)
      = GSq (m ((c : Thread nD τ).loc main_arg0)) :=
    (Pipeline.withArrays_arr spec0 launch0.win.arr_inj c (V0 m c) _ 3).trans (finalPd m c)
  have h4 : Pipeline.withArrays spec0 c (V0 m c) (fun w => (dats m 0 c).arrAt w cfg0.N) (Proc.devRef .tc main_v0_2)
      = GC (m ((c : Thread nD τ).loc main_arg0)) (m ((c : Thread nD τ).loc main_arg1)) :=
    (Pipeline.withArrays_arr spec0 launch0.win.arr_inj c (V0 m c) _ 4).trans (finalC m c)
  refine (tail_eq _ hc).trans ?_
  rw [h2, h3, h4,
    recast_GSq _ (TdR (m ((c : Thread nD τ).loc main_arg1))) (Cert.ReferenceIdeal.RefRead.TdR_apply _),
    recast_GSq _ (PdR (m ((c : Thread nD τ).loc main_arg0))) (Cert.ReferenceIdeal.RefRead.PdR_apply _),
    GC_eq _ _ (CR (m ((c : Thread nD τ).loc main_arg0)) (m ((c : Thread nD τ).loc main_arg1))) (Cert.ReferenceIdeal.RefRead.CR_apply _ _)]

/-- The kernel program's run, read: the result at the reference's term of the launch arrays, the arguments unchanged. -/
theorem run_value : θ_run defs (onTc (τ := τ) (main (F := Ideal))) ⟨m, fun _ => 0, ρ⟩ fun r => ∀ c : Dev nD,
      r.2.mem ((c.tc : Thread nD τ).loc main_v50)
        = tail (F := Ideal) (TdR (m ((c.tc : Thread nD τ).loc main_arg1))) (PdR (m ((c.tc : Thread nD τ).loc main_arg0)))
            (CR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v50 (Pipeline.mem_restRefs_of main_v50 (by decide) (by decide))).trans (result_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Stats

end
-- ==== Proof.lean ====
/-
  The certificate of the permutation-invariant SDR loss kernel against its jnp reference.

  The kernel streams the two [32,4,131072] signal arrays through one region of 32 grid points (one batch row each) and
  leaves three small arrays: the target rows' sums of squares, the prediction rows' sums of squares, and the 4 x 4 cross
  sums of prediction rows with target rows. The reference computes the same three by a reduce-add of the squares and a
  batched product contracted over time. On the extended reals each entry is, on both sides, the same sum of the same
  products in the same order of factors, so no law beyond the reading of a reduction as a plain sum is needed and the
  precondition is not used. From those arrays both programs run the same host lines (gathers by the 24 permutations,
  error energy, log ratio, means, maximum, negated mean), which are carried as one function and never opened.

  Frames: each kernel program runs through its region (the body's triple at a generic grid point, the launch theorem for a
  program that continues after its region) and its later lines, which write no argument; the reference is a straight line
  of host operations. The idealization rewrote nothing, so the preservation claim is empty.
-/
import proofs.«161573_j6640019439975_2_alg».proof.Defs
import proofs.«161573_j6640019439975_2_alg».proof.Proof.Gen.Kernel
import proofs.«161573_j6640019439975_2_alg».proof.Proof.Gen.KernelIdeal
import proofs.«161573_j6640019439975_2_alg».proof.Proof.Gen.ReferenceIdeal
import proofs.«161573_j6640019439975_2_alg».proof.Proof.Gen.Pre_finite_inputs
import proofs.«161573_j6640019439975_2_alg».proof.Proof.WordFrame
import proofs.«161573_j6640019439975_2_alg».proof.Proof.IdealFrame
import proofs.«161573_j6640019439975_2_alg».proof.Proof.IdealValue
import proofs.«161573_j6640019439975_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_p : Cert.frame_Kernel := fun m ρ _ => Cert.Kernel.Stats.frame (F := Bits) m ρ

/-- So does the idealized kernel program. -/
theorem frame_pi : Cert.frame_KernelIdeal := fun m ρ _ => Cert.KernelIdeal.Stats.frame (F := Ideal) m ρ

/-- The reference is a straight line of host operations; its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end at the reference's tail function of the reference's three statistics of the launch arrays, which
    agree. -/
theorem algebraic : Cert.algebraic_KernelIdeal_ReferenceIdeal := by
  intro m ρ m' ρ' _ hagree
  refine ⟨_, Cert.KernelIdeal.Stats.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
